-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  IdealRules.named_const.Statement Cert.KernelIdeal.κ "neg_big" .f32 0xFF333332#32 ⊥

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v23)) (v1 : (c : Dev Cert.KernelIdeal.nD) → Buf (Elt Ideal) ((c.tc : Thread Cert.KernelIdeal.nD Cert.KernelIdeal.τ).loc Cert.KernelIdeal.main_v21)) (v2 : (c : Dev Cert.KernelIdeal.nD) → Buf (Elt Ideal) ((c.tc : Thread Cert.KernelIdeal.nD Cert.KernelIdeal.τ).loc Cert.KernelIdeal.main_v6)) (v3 : (c : Dev Cert.KernelIdeal.nD) → Buf (Elt Ideal) ((c.tc : Thread Cert.KernelIdeal.nD Cert.KernelIdeal.τ).loc Cert.KernelIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_v21) = v1 c
          ∧ r.2.mem ((c.tc : Thread Cert.KernelIdeal.nD Cert.KernelIdeal.τ).loc Cert.KernelIdeal.main_v6) = v2 c
          ∧ r.2.mem ((c.tc : Thread Cert.KernelIdeal.nD Cert.KernelIdeal.τ).loc Cert.KernelIdeal.main_v34) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_v16) = v1 c
          ∧ r.2.mem ((c.tc : Thread Cert.ReferenceIdeal.nD Cert.ReferenceIdeal.τ).loc Cert.ReferenceIdeal.main_v30) = v2 c
          ∧ r.2.mem ((c.tc : Thread Cert.ReferenceIdeal.nD Cert.ReferenceIdeal.τ).loc Cert.ReferenceIdeal.main_v42) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S9x4096x2048 : Shape := ⟨3, ![9, 4096, 2048]⟩
abbrev S1x4096x2048 : Shape := ⟨3, ![1, 4096, 2048]⟩
abbrev S4096x5 : Shape := ⟨2, ![4096, 5]⟩
abbrev S9x4096x5 : Shape := ⟨3, ![9, 4096, 5]⟩
abbrev S9x4096 : Shape := ⟨2, ![9, 4096]⟩
abbrev S2048x512 : Shape := ⟨2, ![2048, 512]⟩
abbrev S9x512x4 : Shape := ⟨3, ![9, 512, 4]⟩
abbrev S9x2048x4 : Shape := ⟨3, ![9, 2048, 4]⟩
abbrev S9x512x1 : Shape := ⟨3, ![9, 512, 1]⟩
abbrev S9x2048x21 : Shape := ⟨3, ![9, 2048, 21]⟩
abbrev S_ : Shape := ⟨0, ![]⟩

class Facts : Prop where
  bcast_S_S9x4096x2048 : S_.BroadcastsInDim S9x4096x2048 (![] : Fin 0 → Fin S9x4096x2048.rank)
  reducesTo_S9x4096x2048_S_d0_1_2 : S9x4096x2048.ReducesTo [0, 1, 2] S_
  h_S_ : 0 < S_.numel
  bcast_S_S1x4096x2048 : S_.BroadcastsInDim S1x4096x2048 (![] : Fin 0 → Fin S1x4096x2048.rank)
  reducesTo_S1x4096x2048_S_d0_1_2 : S1x4096x2048.ReducesTo [0, 1, 2] S_
  bcast_S_S4096x5 : S_.BroadcastsInDim S4096x5 (![] : Fin 0 → Fin S4096x5.rank)
  reducesTo_S4096x5_S_d0_1 : S4096x5.ReducesTo [0, 1] S_
  bcast_S_S9x4096x5 : S_.BroadcastsInDim S9x4096x5 (![] : Fin 0 → Fin S9x4096x5.rank)
  reducesTo_S9x4096x5_S_d0_1_2 : S9x4096x5.ReducesTo [0, 1, 2] S_
  bcast_S_S9x4096 : S_.BroadcastsInDim S9x4096 (![] : Fin 0 → Fin S9x4096.rank)
  reducesTo_S9x4096_S_d0_1 : S9x4096.ReducesTo [0, 1] S_
  bcast_S_S2048x512 : S_.BroadcastsInDim S2048x512 (![] : Fin 0 → Fin S2048x512.rank)
  reducesTo_S2048x512_S_d0_1 : S2048x512.ReducesTo [0, 1] S_
  bcast_S_S9x512x4 : S_.BroadcastsInDim S9x512x4 (![] : Fin 0 → Fin S9x512x4.rank)
  reducesTo_S9x512x4_S_d0_1_2 : S9x512x4.ReducesTo [0, 1, 2] S_
  bcast_S_S9x2048x4 : S_.BroadcastsInDim S9x2048x4 (![] : Fin 0 → Fin S9x2048x4.rank)
  reducesTo_S9x2048x4_S_d0_1_2 : S9x2048x4.ReducesTo [0, 1, 2] S_
  bcast_S_S9x512x1 : S_.BroadcastsInDim S9x512x1 (![] : Fin 0 → Fin S9x512x1.rank)
  reducesTo_S9x512x1_S_d0_1_2 : S9x512x1.ReducesTo [0, 1, 2] S_
  bcast_S_S9x2048x21 : S_.BroadcastsInDim S9x2048x21 (![] : Fin 0 → Fin S9x2048x21.rank)
  reducesTo_S9x2048x21_S_d0_1_2 : S9x2048x21.ReducesTo [0, 1, 2] S_

variable [Facts]

def fn_part2 {F : FTy → Type} [FloatOps F] (main_arg7 : FVec F S9x2048x4 .f32) (main_arg8 : FVec F S9x512x1 .f32) (main_arg9 : FVec F S9x2048x21 .f32) (main_v33 : IVec S_ 1) : IVec S_ 1 :=
  let main_v34 : FVec F S9x2048x4 .f32 := Host.absf main_arg7
  let main_cst_12 : FVec F S_ .f32 := constant S_ .f32 0x7F800000#32
  let main_v35 : FVec F S9x2048x4 .f32 := broadcastInDim S9x2048x4 ![] bcast_S_S9x2048x4 main_cst_12
  let main_v36 : IVec S9x2048x4 1 := cmpf .olt main_v34 main_v35
  let main_c_13 : IVec S_ 1 := constantI S_ 1 1#1
  let main_v37 : IVec S_ 1 := (fun x v => Host.reduce IntOp.andi x v reducesTo_S9x2048x4_S_d0_1_2 h_S_) main_v36 main_c_13
  let main_v38 : IVec S_ 1 := andi main_v33 main_v37
  let main_v39 : FVec F S9x512x1 .f32 := Host.absf main_arg8
  let main_cst_14 : FVec F S_ .f32 := constant S_ .f32 0x7F800000#32
  let main_v40 : FVec F S9x512x1 .f32 := broadcastInDim S9x512x1 ![] bcast_S_S9x512x1 main_cst_14
  let main_v41 : IVec S9x512x1 1 := cmpf .olt main_v39 main_v40
  let main_c_15 : IVec S_ 1 := constantI S_ 1 1#1
  let main_v42 : IVec S_ 1 := (fun x v => Host.reduce IntOp.andi x v reducesTo_S9x512x1_S_d0_1_2 h_S_) main_v41 main_c_15
  let main_v43 : IVec S_ 1 := andi main_v38 main_v42
  let main_v44 : FVec F S9x2048x21 .f32 := Host.absf main_arg9
  let main_cst_16 : FVec F S_ .f32 := constant S_ .f32 0x7F800000#32
  let main_v45 : FVec F S9x2048x21 .f32 := broadcastInDim S9x2048x21 ![] bcast_S_S9x2048x21 main_cst_16
  let main_v46 : IVec S9x2048x21 1 := cmpf .olt main_v44 main_v45
  let main_c_17 : IVec S_ 1 := constantI S_ 1 1#1
  let main_v47 : IVec S_ 1 := (fun x v => Host.reduce IntOp.andi x v reducesTo_S9x2048x21_S_d0_1_2 h_S_) main_v46 main_c_17
  let main_v48 : IVec S_ 1 := andi main_v43 main_v47
  main_v48

def fn_part1 {F : FTy → Type} [FloatOps F] (main_arg4 : FVec F S9x4096 .f32) (main_arg5 : FVec F S2048x512 .f32) (main_arg6 : FVec F S9x512x4 .f32) (main_arg7 : FVec F S9x2048x4 .f32) (main_arg8 : FVec F S9x512x1 .f32) (main_arg9 : FVec F S9x2048x21 .f32) (main_v13 : IVec S_ 1) (main_v16 : IVec S9x4096x5 1) : IVec S_ 1 :=
  let main_c_5 : IVec S_ 1 := constantI S_ 1 1#1
  let main_v17 : IVec S_ 1 := (fun x v => Host.reduce IntOp.andi x v reducesTo_S9x4096x5_S_d0_1_2 h_S_) main_v16 main_c_5
  let main_v18 : IVec S_ 1 := andi main_v13 main_v17
  let main_v19 : FVec F S9x4096 .f32 := Host.absf main_arg4
  let main_cst_6 : FVec F S_ .f32 := constant S_ .f32 0x7F800000#32
  let main_v20 : FVec F S9x4096 .f32 := broadcastInDim S9x4096 ![] bcast_S_S9x4096 main_cst_6
  let main_v21 : IVec S9x4096 1 := cmpf .olt main_v19 main_v20
  let main_c_7 : IVec S_ 1 := constantI S_ 1 1#1
  let main_v22 : IVec S_ 1 := (fun x v => Host.reduce IntOp.andi x v reducesTo_S9x4096_S_d0_1 h_S_) main_v21 main_c_7
  let main_v23 : IVec S_ 1 := andi main_v18 main_v22
  let main_v24 : FVec F S2048x512 .f32 := Host.absf main_arg5
  let main_cst_8 : FVec F S_ .f32 := constant S_ .f32 0x7F800000#32
  let main_v25 : FVec F S2048x512 .f32 := broadcastInDim S2048x512 ![] bcast_S_S2048x512 main_cst_8
  let main_v26 : IVec S2048x512 1 := cmpf .olt main_v24 main_v25
  let main_c_9 : IVec S_ 1 := constantI S_ 1 1#1
  let main_v27 : IVec S_ 1 := (fun x v => Host.reduce IntOp.andi x v reducesTo_S2048x512_S_d0_1 h_S_) main_v26 main_c_9
  let main_v28 : IVec S_ 1 := andi main_v23 main_v27
  let main_v29 : FVec F S9x512x4 .f32 := Host.absf main_arg6
  let main_cst_10 : FVec F S_ .f32 := constant S_ .f32 0x7F800000#32
  let main_v30 : FVec F S9x512x4 .f32 := broadcastInDim S9x512x4 ![] bcast_S_S9x512x4 main_cst_10
  let main_v31 : IVec S9x512x4 1 := cmpf .olt main_v29 main_v30
  let main_c_11 : IVec S_ 1 := constantI S_ 1 1#1
  let main_v32 : IVec S_ 1 := (fun x v => Host.reduce IntOp.andi x v reducesTo_S9x512x4_S_d0_1_2 h_S_) main_v31 main_c_11
  let main_v33 : IVec S_ 1 := andi main_v28 main_v32
  fn_part2 (F := F) main_arg7 main_arg8 main_arg9 main_v33

def fn {F : FTy → Type} [FloatOps F] (main_arg0 : FVec F S9x4096x2048 .f32) (main_arg1 : FVec F S1x4096x2048 .f32) (main_arg2 : FVec F S4096x5 .f32) (main_arg3 : FVec F S9x4096x5 .f32) (main_arg4 : FVec F S9x4096 .f32) (main_arg5 : FVec F S2048x512 .f32) (main_arg6 : FVec F S9x512x4 .f32) (main_arg7 : FVec F S9x2048x4 .f32) (main_arg8 : FVec F S9x512x1 .f32) (main_arg9 : FVec F S9x2048x21 .f32) : IVec S_ 1 :=
  let main_v0 : FVec F S9x4096x2048 .f32 := Host.absf main_arg0
  let main_cst : FVec F S_ .f32 := constant S_ .f32 0x7F800000#32
  let main_v1 : FVec F S9x4096x2048 .f32 := broadcastInDim S9x4096x2048 ![] bcast_S_S9x4096x2048 main_cst
  let main_v2 : IVec S9x4096x2048 1 := cmpf .olt main_v0 main_v1
  let main_c : IVec S_ 1 := constantI S_ 1 1#1
  let main_v3 : IVec S_ 1 := (fun x v => Host.reduce IntOp.andi x v reducesTo_S9x4096x2048_S_d0_1_2 h_S_) main_v2 main_c
  let main_v4 : FVec F S1x4096x2048 .f32 := Host.absf main_arg1
  let main_cst_0 : FVec F S_ .f32 := constant S_ .f32 0x7F800000#32
  let main_v5 : FVec F S1x4096x2048 .f32 := broadcastInDim S1x4096x2048 ![] bcast_S_S1x4096x2048 main_cst_0
  let main_v6 : IVec S1x4096x2048 1 := cmpf .olt main_v4 main_v5
  let main_c_1 : IVec S_ 1 := constantI S_ 1 1#1
  let main_v7 : IVec S_ 1 := (fun x v => Host.reduce IntOp.andi x v reducesTo_S1x4096x2048_S_d0_1_2 h_S_) main_v6 main_c_1
  let main_v8 : IVec S_ 1 := andi main_v3 main_v7
  let main_v9 : FVec F S4096x5 .f32 := Host.absf main_arg2
  let main_cst_2 : FVec F S_ .f32 := constant S_ .f32 0x7F800000#32
  let main_v10 : FVec F S4096x5 .f32 := broadcastInDim S4096x5 ![] bcast_S_S4096x5 main_cst_2
  let main_v11 : IVec S4096x5 1 := cmpf .olt main_v9 main_v10
  let main_c_3 : IVec S_ 1 := constantI S_ 1 1#1
  let main_v12 : IVec S_ 1 := (fun x v => Host.reduce IntOp.andi x v reducesTo_S4096x5_S_d0_1 h_S_) main_v11 main_c_3
  let main_v13 : IVec S_ 1 := andi main_v8 main_v12
  let main_v14 : FVec F S9x4096x5 .f32 := Host.absf main_arg3
  let main_cst_4 : FVec F S_ .f32 := constant S_ .f32 0x7F800000#32
  let main_v15 : FVec F S9x4096x5 .f32 := broadcastInDim S9x4096x5 ![] bcast_S_S9x4096x5 main_cst_4
  let main_v16 : IVec S9x4096x5 1 := cmpf .olt main_v14 main_v15
  fn_part1 (F := F) main_arg4 main_arg5 main_arg6 main_arg7 main_arg8 main_arg9 main_v13 main_v16
-- ==== Kernel.lean ====
abbrev S9x4096x2048 : Shape := ⟨3, ![9, 4096, 2048]⟩
abbrev S1x4096x2048 : Shape := ⟨3, ![1, 4096, 2048]⟩
abbrev S4096x5 : Shape := ⟨2, ![4096, 5]⟩
abbrev S9x4096x5 : Shape := ⟨3, ![9, 4096, 5]⟩
abbrev S9x4096 : Shape := ⟨2, ![9, 4096]⟩
abbrev S2048x512 : Shape := ⟨2, ![2048, 512]⟩
abbrev S9x512x4 : Shape := ⟨3, ![9, 512, 4]⟩
abbrev S9x2048x4 : Shape := ⟨3, ![9, 2048, 4]⟩
abbrev S9x512x1 : Shape := ⟨3, ![9, 512, 1]⟩
abbrev S9x2048x21 : Shape := ⟨3, ![9, 2048, 21]⟩
abbrev S9x2048x25 : Shape := ⟨3, ![9, 2048, 25]⟩
abbrev S_ : Shape := ⟨0, ![]⟩
abbrev S9x2048x128 : Shape := ⟨3, ![9, 2048, 128]⟩
abbrev S9x512x5 : Shape := ⟨3, ![9, 512, 5]⟩
abbrev S9x512x128 : Shape := ⟨3, ![9, 512, 128]⟩
abbrev S9x4096x128 : Shape := ⟨3, ![9, 4096, 128]⟩
abbrev S1x1024x2048 : Shape := ⟨3, ![1, 1024, 2048]⟩
abbrev S1x2048x128 : Shape := ⟨3, ![1, 2048, 128]⟩
abbrev S1x512x128 : Shape := ⟨3, ![1, 512, 128]⟩
abbrev S1x1024x128 : Shape := ⟨3, ![1, 1024, 128]⟩
abbrev S1024x2048 : Shape := ⟨2, ![1024, 2048]⟩
abbrev S2048x128 : Shape := ⟨2, ![2048, 128]⟩
abbrev S512x128 : Shape := ⟨2, ![512, 128]⟩
abbrev S1024x512 : Shape := ⟨2, ![1024, 512]⟩
abbrev S1024x128 : Shape := ⟨2, ![1024, 128]⟩
abbrev S1024 : Shape := ⟨1, ![1024]⟩
abbrev S1024x1 : Shape := ⟨2, ![1024, 1]⟩
abbrev S9x4096x4 : Shape := ⟨3, ![9, 4096, 4]⟩
abbrev S9x4096x21 : Shape := ⟨3, ![9, 4096, 21]⟩
abbrev S9x4096x1 : Shape := ⟨3, ![9, 4096, 1]⟩
abbrev S4096x4 : Shape := ⟨2, ![4096, 4]⟩
abbrev S1x4096x4 : Shape := ⟨3, ![1, 4096, 4]⟩
abbrev S4096x1 : Shape := ⟨2, ![4096, 1]⟩
abbrev S1x4096x1 : Shape := ⟨3, ![1, 4096, 1]⟩

abbrev nBuf : Space → Nat
  | .hbm => 57
  | .vmem => 11
  | .smem => 0
  | _ => 0

abbrev bufTy : (tb : Table) → Fin (tcTables nBuf tb) → BufTy
  | .hbm, ⟨0, _⟩ => ⟨S9x4096x2048, .f32⟩
  | .hbm, ⟨1, _⟩ => ⟨S1x4096x2048, .f32⟩
  | .hbm, ⟨2, _⟩ => ⟨S4096x5, .f32⟩
  | .hbm, ⟨3, _⟩ => ⟨S9x4096x5, .f32⟩
  | .hbm, ⟨4, _⟩ => ⟨S9x4096, .f32⟩
  | .hbm, ⟨5, _⟩ => ⟨S2048x512, .f32⟩
  | .hbm, ⟨6, _⟩ => ⟨S9x512x4, .f32⟩
  | .hbm, ⟨7, _⟩ => ⟨S9x2048x4, .f32⟩
  | .hbm, ⟨8, _⟩ => ⟨S9x512x1, .f32⟩
  | .hbm, ⟨9, _⟩ => ⟨S9x2048x21, .f32⟩
  | .hbm, ⟨10, _⟩ => ⟨S9x2048x25, .f32⟩
  | .hbm, ⟨11, _⟩ => ⟨S_, .i32⟩
  | .hbm, ⟨12, _⟩ => ⟨S_, .f32⟩
  | .hbm, ⟨13, _⟩ => ⟨S9x2048x128, .f32⟩
  | .hbm, ⟨14, _⟩ => ⟨S9x512x5, .f32⟩
  | .hbm, ⟨15, _⟩ => ⟨S_, .i32⟩
  | .hbm, ⟨16, _⟩ => ⟨S_, .f32⟩
  | .hbm, ⟨17, _⟩ => ⟨S9x512x128, .f32⟩
  | .hbm, ⟨18, _⟩ => ⟨S9x4096x128, .f32⟩
  | .hbm, ⟨19, _⟩ => ⟨S9x4096x128, .f32⟩
  | .hbm, ⟨20, _⟩ => ⟨S9x4096x4, .f32⟩
  | .hbm, ⟨21, _⟩ => ⟨S9x4096x21, .f32⟩
  | .hbm, ⟨22, _⟩ => ⟨S9x4096x4, .f32⟩
  | .hbm, ⟨23, _⟩ => ⟨S9x4096x1, .f32⟩
  | .hbm, ⟨24, _⟩ => ⟨S_, .f32⟩
  | .hbm, ⟨25, _⟩ => ⟨S4096x4, .f32⟩
  | .hbm, ⟨26, _⟩ => ⟨S_, .f32⟩
  | .hbm, ⟨27, _⟩ => ⟨S4096x4, .f32⟩
  | .hbm, ⟨28, _⟩ => ⟨S4096x4, .f32⟩
  | .hbm, ⟨29, _⟩ => ⟨S1x4096x4, .f32⟩
  | .hbm, ⟨30, _⟩ => ⟨S9x4096x4, .f32⟩
  | .hbm, ⟨31, _⟩ => ⟨S9x4096x4, .f32⟩
  | .hbm, ⟨32, _⟩ => ⟨S9x4096x4, .f32⟩
  | .hbm, ⟨33, _⟩ => ⟨S_, .f32⟩
  | .hbm, ⟨34, _⟩ => ⟨S4096x4, .f32⟩
  | .hbm, ⟨35, _⟩ => ⟨S1x4096x4, .f32⟩
  | .hbm, ⟨36, _⟩ => ⟨S9x4096x4, .f32⟩
  | .hbm, ⟨37, _⟩ => ⟨S9x4096x4, .f32⟩
  | .hbm, ⟨38, _⟩ => ⟨S9x4096x4, .f32⟩
  | .hbm, ⟨39, _⟩ => ⟨S9x4096x4, .f32⟩
  | .hbm, ⟨40, _⟩ => ⟨S9x4096x4, .f32⟩
  | .hbm, ⟨41, _⟩ => ⟨S_, .f32⟩
  | .hbm, ⟨42, _⟩ => ⟨S4096x4, .f32⟩
  | .hbm, ⟨43, _⟩ => ⟨S_, .f32⟩
  | .hbm, ⟨44, _⟩ => ⟨S4096x1, .f32⟩
  | .hbm, ⟨45, _⟩ => ⟨S_, .f32⟩
  | .hbm, ⟨46, _⟩ => ⟨S4096x1, .f32⟩
  | .hbm, ⟨47, _⟩ => ⟨S4096x1, .f32⟩
  | .hbm, ⟨48, _⟩ => ⟨S1x4096x1, .f32⟩
  | .hbm, ⟨49, _⟩ => ⟨S9x4096x1, .f32⟩
  | .hbm, ⟨50, _⟩ => ⟨S9x4096x1, .f32⟩
  | .hbm, ⟨51, _⟩ => ⟨S9x4096x1, .f32⟩
  | .hbm, ⟨52, _⟩ => ⟨S_, .f32⟩
  | .hbm, ⟨53, _⟩ => ⟨S4096x1, .f32⟩
  | .hbm, ⟨54, _⟩ => ⟨S1x4096x1, .f32⟩
  | .hbm, ⟨55, _⟩ => ⟨S9x4096x1, .f32⟩
  | .hbm, ⟨56, _⟩ => ⟨S9x4096x1, .f32⟩
  | .local _ .vmem, ⟨0, _⟩ => ⟨S1x1024x2048, .f32⟩
  | .local _ .vmem, ⟨1, _⟩ => ⟨S1x1024x2048, .f32⟩
  | .local _ .vmem, ⟨2, _⟩ => ⟨S2048x512, .f32⟩
  | .local _ .vmem, ⟨3, _⟩ => ⟨S1x2048x128, .f32⟩
  | .local _ .vmem, ⟨4, _⟩ => ⟨S1x2048x128, .f32⟩
  | .local _ .vmem, ⟨5, _⟩ => ⟨S1x512x128, .f32⟩
  | .local _ .vmem, ⟨6, _⟩ => ⟨S1x512x128, .f32⟩
  | .local _ .vmem, ⟨7, _⟩ => ⟨S1x1024x128, .f32⟩
  | .local _ .vmem, ⟨8, _⟩ => ⟨S1x1024x128, .f32⟩
  | .local _ .vmem, ⟨9, _⟩ => ⟨S1x1024x128, .f32⟩
  | .local _ .vmem, ⟨10, _⟩ => ⟨S1x1024x128, .f32⟩
  | _, _ => ⟨S9x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_c : Ref sig .tc := ⟨.hbm, 11, rfl⟩
abbrev main_call0_v0 : Ref sig .tc := ⟨.hbm, 12, rfl⟩
abbrev main_v1 : Ref sig .tc := ⟨.hbm, 13, rfl⟩
abbrev main_v2 : Ref sig .tc := ⟨.hbm, 14, rfl⟩
abbrev main_c_0 : Ref sig .tc := ⟨.hbm, 15, rfl⟩
abbrev main_call1_v0 : Ref sig .tc := ⟨.hbm, 16, rfl⟩
abbrev main_v3 : Ref sig .tc := ⟨.hbm, 17, rfl⟩
abbrev main_v4_0 : Ref sig .tc := ⟨.hbm, 18, rfl⟩
abbrev main_v4_1 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_cst : Ref sig .tc := ⟨.hbm, 24, rfl⟩
abbrev main_v9 : Ref sig .tc := ⟨.hbm, 25, rfl⟩
abbrev main_cst_1 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_cst_2 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_cst_3 : Ref sig .tc := ⟨.hbm, 41, rfl⟩
abbrev main_v23 : Ref sig .tc := ⟨.hbm, 42, rfl⟩
abbrev main_cst_4 : Ref sig .tc := ⟨.hbm, 43, rfl⟩
abbrev main_v24 : Ref sig .tc := ⟨.hbm, 44, rfl⟩
abbrev main_cst_5 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_cst_6 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![9, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S2048x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  concatenates_S9x2048x4_S9x2048x21_S9x2048x25_d2 : Shape.Concatenates [S9x2048x4, S9x2048x21] S9x2048x25 2
  pads_S9x2048x25_S9x2048x128_000_000_01030 : S9x2048x25.Pads (![0, 0, 0] : Fin 3 → Nat) ![0, 0, 103] ![0, 0, 0] S9x2048x128
  h_S_ : 0 < S_.numel
  concatenates_S9x512x4_S9x512x1_S9x512x5_d2 : Shape.Concatenates [S9x512x4, S9x512x1] S9x512x5 2
  pads_S9x512x5_S9x512x128_000_000_01230 : S9x512x5.Pads (![0, 0, 0] : Fin 3 → Nat) ![0, 0, 123] ![0, 0, 0] S9x512x128
  inb_S1x1024x2048_S1x1024x2048_0_0_0 : ∀ a, (![0, 0, 0] : Fin 3 → Nat) a + S1x1024x2048.size a ≤ S1x1024x2048.size a
  h_S1x1024x2048 : 0 < S1x1024x2048.numel
  shapeCasts_S1x1024x2048_S1024x2048 : S1x1024x2048.ShapeCasts S1024x2048
  bitsLt_bf16_f32 : FTy.bits .bf16 < FTy.bits .f32
  inb_S2048x512_S2048x512_0_0 : ∀ a, (![0, 0] : Fin 2 → Nat) a + S2048x512.size a ≤ S2048x512.size a
  h_S2048x512 : 0 < S2048x512.numel
  inb_S1x2048x128_S1x2048x128_0_0_0 : ∀ a, (![0, 0, 0] : Fin 3 → Nat) a + S1x2048x128.size a ≤ S1x2048x128.size a
  h_S1x2048x128 : 0 < S1x2048x128.numel
  shapeCasts_S1x2048x128_S2048x128 : S1x2048x128.ShapeCasts S2048x128
  inb_S1x512x128_S1x512x128_0_0_0 : ∀ a, (![0, 0, 0] : Fin 3 → Nat) a + S1x512x128.size a ≤ S1x512x128.size a
  h_S1x512x128 : 0 < S1x512x128.numel
  shapeCasts_S1x512x128_S512x128 : S1x512x128.ShapeCasts S512x128
  iota_S1024x128_d1_w32 : S1024x128.Iotas .tc 32 [1]
  reduces_S1024x128_S1024 : S1024x128.Reduces [1] S1024
  shapeCasts_S1024_S1024x1 : S1024.ShapeCasts S1024x1
  broadcasts_S1024x1_S1024x128 : S1024x1.Broadcasts S1024x128
  inb_S1x1024x128_S1x1024x128_0_0_0 : ∀ a, (![0, 0, 0] : Fin 3 → Nat) a + S1x1024x128.size a ≤ S1x1024x128.size a
  h_S1x1024x128 : 0 < S1x1024x128.numel
  shapeCasts_S1x1024x128_S1024x128 : S1x1024x128.ShapeCasts S1024x128
  shapeCasts_S1024x128_S1x1024x128 : S1024x128.ShapeCasts S1x1024x128
  slices_S9x4096x128_S9x4096x4_0_0_0 : S9x4096x128.Slices ![0, 0, 0] S9x4096x4
  slices_S9x4096x128_S9x4096x21_0_0_4 : S9x4096x128.Slices ![0, 0, 4] S9x4096x21
  slices_S9x4096x128_S9x4096x1_0_0_4 : S9x4096x128.Slices ![0, 0, 4] S9x4096x1
  reducesTo_S9x4096x4_S4096x4_d0 : S9x4096x4.ReducesTo [0] S4096x4
  bcast_S_S4096x4 : S_.BroadcastsInDim S4096x4 (![] : Fin 0 → Fin S4096x4.rank)
  bcast_S4096x4_S1x4096x4_1_2 : S4096x4.BroadcastsInDim S1x4096x4 (![1, 2] : Fin 2 → Fin S1x4096x4.rank)
  bcast_S1x4096x4_S9x4096x4_0_1_2 : S1x4096x4.BroadcastsInDim S9x4096x4 (![0, 1, 2] : Fin 3 → Fin S9x4096x4.rank)
  slices_S9x4096x5_S9x4096x4_0_0_1 : S9x4096x5.Slices ![0, 0, 1] S9x4096x4
  reducesTo_S9x4096x1_S4096x1_d0 : S9x4096x1.ReducesTo [0] S4096x1
  bcast_S_S4096x1 : S_.BroadcastsInDim S4096x1 (![] : Fin 0 → Fin S4096x1.rank)
  bcast_S4096x1_S1x4096x1_1_2 : S4096x1.BroadcastsInDim S1x4096x1 (![1, 2] : Fin 2 → Fin S1x4096x1.rank)
  bcast_S1x4096x1_S9x4096x1_0_1_2 : S1x4096x1.BroadcastsInDim S9x4096x1 (![0, 1, 2] : Fin 3 → Fin S9x4096x1.rank)
  dot_S1024x2048_S2048x512_S1024x512_1_0_0_1_n_n_wf : DotDims.WF S1024x2048 S2048x512 S1024x512 [1] [0] [0] [1] [] []
  dot_S1024x2048_S2048x128_S1024x128_1_0_0_1_n_n_wf : DotDims.WF S1024x2048 S2048x128 S1024x128 [1] [0] [0] [1] [] []
  dot_S1024x512_S512x128_S1024x128_1_0_0_1_n_n_wf : DotDims.WF S1024x512 S512x128 S1024x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x2048.size a ≤ S9x4096x2048.size a
  hwx0_0 : ∀ i : grid0.Coords, EltTy.bits .f32 = 32 ∨ (Rect.block (s := S9x4096x2048) S1x1024x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x512.size a ≤ S2048x512.size a
  hwx0_1 : ∀ i : grid0.Coords, EltTy.bits .f32 = 32 ∨ (Rect.block (s := S2048x512) S2048x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x128.size a ≤ S9x2048x128.size a
  hwx0_2 : ∀ i : grid0.Coords, EltTy.bits .f32 = 32 ∨ (Rect.block (s := S9x2048x128) S1x2048x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x128.size a ≤ S9x512x128.size a
  hwx0_3 : ∀ i : grid0.Coords, EltTy.bits .f32 = 32 ∨ (Rect.block (s := S9x512x128) S1x512x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024x128.size a ≤ S9x4096x128.size a
  hwx0_4 : ∀ i : grid0.Coords, EltTy.bits .f32 = 32 ∨ (Rect.block (s := S9x4096x128) S1x1024x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1024x128.size a ≤ S9x4096x128.size a
  hwx0_5 : ∀ i : grid0.Coords, EltTy.bits .f32 = 32 ∨ (Rect.block (s := S9x4096x128) S1x1024x128.size (cc0_transform_5 i) (hinb0_5 i)).WholeWords (EltTy.packing .f32)

variable [Facts₀]

def dot_S1024x2048_S2048x512_S1024x512_1_0_0_1_n_n : DotDims S1024x2048 S2048x512 S1024x512 where
  lhsContracting := [1]
  rhsContracting := [0]
  lhsNonContracting := [0]
  rhsNonContracting := [1]
  lhsBatch := []
  rhsBatch := []
  wf := dot_S1024x2048_S2048x512_S1024x512_1_0_0_1_n_n_wf
def dot_S1024x2048_S2048x128_S1024x128_1_0_0_1_n_n : DotDims S1024x2048 S2048x128 S1024x128 where
  lhsContracting := [1]
  rhsContracting := [0]
  lhsNonContracting := [0]
  rhsNonContracting := [1]
  lhsBatch := []
  rhsBatch := []
  wf := dot_S1024x2048_S2048x128_S1024x128_1_0_0_1_n_n_wf
def dot_S1024x512_S512x128_S1024x128_1_0_0_1_n_n : DotDims S1024x512 S512x128 S1024x128 where
  lhsContracting := [1]
  rhsContracting := [0]
  lhsNonContracting := [0]
  rhsNonContracting := [1]
  lhsBatch := []
  rhsBatch := []
  wf := dot_S1024x512_S512x128_S1024x128_1_0_0_1_n_n_wf

abbrev win0_0 : Pipeline.Window sig grid0 :=
  Pipeline.Window.ofSpec (Memref.whole main_arg0) S1x1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg5) S2048x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x2048x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x512x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4_0) S1x1024x128.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v4_1) S1x1024x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S9x4096x2048 : Shape := ⟨3, ![9, 4096, 2048]⟩
abbrev S1x4096x2048 : Shape := ⟨3, ![1, 4096, 2048]⟩
abbrev S4096x5 : Shape := ⟨2, ![4096, 5]⟩
abbrev S9x4096x5 : Shape := ⟨3, ![9, 4096, 5]⟩
abbrev S9x4096 : Shape := ⟨2, ![9, 4096]⟩
abbrev S2048x512 : Shape := ⟨2, ![2048, 512]⟩
abbrev S9x512x4 : Shape := ⟨3, ![9, 512, 4]⟩
abbrev S9x2048x4 : Shape := ⟨3, ![9, 2048, 4]⟩
abbrev S9x512x1 : Shape := ⟨3, ![9, 512, 1]⟩
abbrev S9x2048x21 : Shape := ⟨3, ![9, 2048, 21]⟩
abbrev S9x4096x512 : Shape := ⟨3, ![9, 4096, 512]⟩
abbrev S_ : Shape := ⟨0, ![]⟩
abbrev S9x4096x4 : Shape := ⟨3, ![9, 4096, 4]⟩
abbrev S4096x4 : Shape := ⟨2, ![4096, 4]⟩
abbrev S1x4096x4 : Shape := ⟨3, ![1, 4096, 4]⟩
abbrev S9x4096x21 : Shape := ⟨3, ![9, 4096, 21]⟩
abbrev S9x4096x1 : Shape := ⟨3, ![9, 4096, 1]⟩
abbrev S4096x1 : Shape := ⟨2, ![4096, 1]⟩
abbrev S1x4096x1 : Shape := ⟨3, ![1, 4096, 1]⟩

abbrev nBuf : Space → Nat
  | .hbm => 65
  | .vmem => 0
  | .smem => 0
  | _ => 0

abbrev bufTy : (tb : Table) → Fin (tcTables nBuf tb) → BufTy
  | .hbm, ⟨0, _⟩ => ⟨S9x4096x2048, .f32⟩
  | .hbm, ⟨1, _⟩ => ⟨S1x4096x2048, .f32⟩
  | .hbm, ⟨2, _⟩ => ⟨S4096x5, .f32⟩
  | .hbm, ⟨3, _⟩ => ⟨S9x4096x5, .f32⟩
  | .hbm, ⟨4, _⟩ => ⟨S9x4096, .f32⟩
  | .hbm, ⟨5, _⟩ => ⟨S2048x512, .f32⟩
  | .hbm, ⟨6, _⟩ => ⟨S9x512x4, .f32⟩
  | .hbm, ⟨7, _⟩ => ⟨S9x2048x4, .f32⟩
  | .hbm, ⟨8, _⟩ => ⟨S9x512x1, .f32⟩
  | .hbm, ⟨9, _⟩ => ⟨S9x2048x21, .f32⟩
  | .hbm, ⟨10, _⟩ => ⟨S9x4096x512, .f32⟩
  | .hbm, ⟨11, _⟩ => ⟨S_, .f32⟩
  | .hbm, ⟨12, _⟩ => ⟨S9x4096x512, .f32⟩
  | .hbm, ⟨13, _⟩ => ⟨S9x4096x512, .f32⟩
  | .hbm, ⟨14, _⟩ => ⟨S9x4096x4, .f32⟩
  | .hbm, ⟨15, _⟩ => ⟨S9x4096x4, .f32⟩
  | .hbm, ⟨16, _⟩ => ⟨S_, .f32⟩
  | .hbm, ⟨17, _⟩ => ⟨S4096x4, .f32⟩
  | .hbm, ⟨18, _⟩ => ⟨S_, .f32⟩
  | .hbm, ⟨19, _⟩ => ⟨S4096x4, .f32⟩
  | .hbm, ⟨20, _⟩ => ⟨S4096x4, .f32⟩
  | .hbm, ⟨21, _⟩ => ⟨S1x4096x4, .f32⟩
  | .hbm, ⟨22, _⟩ => ⟨S9x4096x4, .f32⟩
  | .hbm, ⟨23, _⟩ => ⟨S9x4096x4, .f32⟩
  | .hbm, ⟨24, _⟩ => ⟨S9x4096x4, .f32⟩
  | .hbm, ⟨25, _⟩ => ⟨S_, .f32⟩
  | .hbm, ⟨26, _⟩ => ⟨S4096x4, .f32⟩
  | .hbm, ⟨27, _⟩ => ⟨S1x4096x4, .f32⟩
  | .hbm, ⟨28, _⟩ => ⟨S9x4096x4, .f32⟩
  | .hbm, ⟨29, _⟩ => ⟨S9x4096x4, .f32⟩
  | .hbm, ⟨30, _⟩ => ⟨S9x4096x4, .f32⟩
  | .hbm, ⟨31, _⟩ => ⟨S9x4096x4, .f32⟩
  | .hbm, ⟨32, _⟩ => ⟨S9x4096x4, .f32⟩
  | .hbm, ⟨33, _⟩ => ⟨S_, .f32⟩
  | .hbm, ⟨34, _⟩ => ⟨S4096x4, .f32⟩
  | .hbm, ⟨35, _⟩ => ⟨S9x4096x21, .f32⟩
  | .hbm, ⟨36, _⟩ => ⟨S_, .f32⟩
  | .hbm, ⟨37, _⟩ => ⟨S9x4096, .f32⟩
  | .hbm, ⟨38, _⟩ => ⟨S_, .f32⟩
  | .hbm, ⟨39, _⟩ => ⟨S9x4096, .f32⟩
  | .hbm, ⟨40, _⟩ => ⟨S9x4096, .f32⟩
  | .hbm, ⟨41, _⟩ => ⟨S9x4096x1, .f32⟩
  | .hbm, ⟨42, _⟩ => ⟨S9x4096x21, .f32⟩
  | .hbm, ⟨43, _⟩ => ⟨S9x4096x21, .f32⟩
  | .hbm, ⟨44, _⟩ => ⟨S9x4096x21, .f32⟩
  | .hbm, ⟨45, _⟩ => ⟨S_, .f32⟩
  | .hbm, ⟨46, _⟩ => ⟨S9x4096, .f32⟩
  | .hbm, ⟨47, _⟩ => ⟨S9x4096x1, .f32⟩
  | .hbm, ⟨48, _⟩ => ⟨S9x4096x21, .f32⟩
  | .hbm, ⟨49, _⟩ => ⟨S9x4096x21, .f32⟩
  | .hbm, ⟨50, _⟩ => ⟨S9x4096x1, .f32⟩
  | .hbm, ⟨51, _⟩ => ⟨S_, .f32⟩
  | .hbm, ⟨52, _⟩ => ⟨S4096x1, .f32⟩
  | .hbm, ⟨53, _⟩ => ⟨S_, .f32⟩
  | .hbm, ⟨54, _⟩ => ⟨S4096x1, .f32⟩
  | .hbm, ⟨55, _⟩ => ⟨S4096x1, .f32⟩
  | .hbm, ⟨56, _⟩ => ⟨S1x4096x1, .f32⟩
  | .hbm, ⟨57, _⟩ => ⟨S9x4096x1, .f32⟩
  | .hbm, ⟨58, _⟩ => ⟨S9x4096x1, .f32⟩
  | .hbm, ⟨59, _⟩ => ⟨S9x4096x1, .f32⟩
  | .hbm, ⟨60, _⟩ => ⟨S_, .f32⟩
  | .hbm, ⟨61, _⟩ => ⟨S4096x1, .f32⟩
  | .hbm, ⟨62, _⟩ => ⟨S1x4096x1, .f32⟩
  | .hbm, ⟨63, _⟩ => ⟨S9x4096x1, .f32⟩
  | .hbm, ⟨64, _⟩ => ⟨S9x4096x1, .f32⟩
  | _, _ => ⟨S9x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_call0_cst : Ref sig .tc := ⟨.hbm, 11, rfl⟩
abbrev main_call0_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_cst_0 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_1 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_2 : Ref sig .tc := ⟨.hbm, 33, rfl⟩
abbrev main_v18 : Ref sig .tc := ⟨.hbm, 34, rfl⟩
abbrev main_v19 : Ref sig .tc := ⟨.hbm, 35, rfl⟩
abbrev main_cst_3 : Ref sig .tc := ⟨.hbm, 36, rfl⟩
abbrev main_v20 : Ref sig .tc := ⟨.hbm, 37, rfl⟩
abbrev main_cst_4 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_cst_5 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_cst_6 : Ref sig .tc := ⟨.hbm, 51, rfl⟩
abbrev main_v32 : Ref sig .tc := ⟨.hbm, 52, rfl⟩
abbrev main_cst_7 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_cst_8 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩

abbrev nD : Nat := 1
abbrev τ : Topo := Topo.v7x

variable {F : FTy → Type} [FloatOps F]

class Facts₀ : Prop where
  bcast_S_S9x4096x512 : S_.BroadcastsInDim S9x4096x512 (![] : Fin 0 → Fin S9x4096x512.rank)
  reducesTo_S9x4096x4_S4096x4_d0 : S9x4096x4.ReducesTo [0] S4096x4
  h_S_ : 0 < S_.numel
  bcast_S_S4096x4 : S_.BroadcastsInDim S4096x4 (![] : Fin 0 → Fin S4096x4.rank)
  bcast_S4096x4_S1x4096x4_1_2 : S4096x4.BroadcastsInDim S1x4096x4 (![1, 2] : Fin 2 → Fin S1x4096x4.rank)
  bcast_S1x4096x4_S9x4096x4_0_1_2 : S1x4096x4.BroadcastsInDim S9x4096x4 (![0, 1, 2] : Fin 3 → Fin S9x4096x4.rank)
  slices_S9x4096x5_S9x4096x4_0_0_1 : S9x4096x5.Slices ![0, 0, 1] S9x4096x4
  reducesTo_S9x4096x21_S9x4096_d2 : S9x4096x21.ReducesTo [2] S9x4096
  bcast_S_S9x4096 : S_.BroadcastsInDim S9x4096 (![] : Fin 0 → Fin S9x4096.rank)
  bcast_S9x4096_S9x4096x1_0_1 : S9x4096.BroadcastsInDim S9x4096x1 (![0, 1] : Fin 2 → Fin S9x4096x1.rank)
  bcast_S9x4096x1_S9x4096x21_0_1_2 : S9x4096x1.BroadcastsInDim S9x4096x21 (![0, 1, 2] : Fin 3 → Fin S9x4096x21.rank)
  reducesTo_S9x4096x1_S4096x1_d0 : S9x4096x1.ReducesTo [0] S4096x1
  bcast_S_S4096x1 : S_.BroadcastsInDim S4096x1 (![] : Fin 0 → Fin S4096x1.rank)
  bcast_S4096x1_S1x4096x1_1_2 : S4096x1.BroadcastsInDim S1x4096x1 (![1, 2] : Fin 2 → Fin S1x4096x1.rank)
  bcast_S1x4096x1_S9x4096x1_0_1_2 : S1x4096x1.BroadcastsInDim S9x4096x1 (![0, 1, 2] : Fin 3 → Fin S9x4096x1.rank)
  dot_S9x4096x2048_S2048x512_S9x4096x512_2_0_01_1_n_n_wf : DotDims.WF S9x4096x2048 S2048x512 S9x4096x512 [2] [0] [0, 1] [1] [] []
  dot_S9x4096x512_S9x512x4_S9x4096x4_2_1_1_2_0_0_wf : DotDims.WF S9x4096x512 S9x512x4 S9x4096x4 [2] [1] [1] [2] [0] [0]
  dot_S9x4096x2048_S9x2048x4_S9x4096x4_2_1_1_2_0_0_wf : DotDims.WF S9x4096x2048 S9x2048x4 S9x4096x4 [2] [1] [1] [2] [0] [0]
  dot_S9x4096x2048_S9x2048x21_S9x4096x21_2_1_1_2_0_0_wf : DotDims.WF S9x4096x2048 S9x2048x21 S9x4096x21 [2] [1] [1] [2] [0] [0]
  dot_S9x4096x512_S9x512x1_S9x4096x1_2_1_1_2_0_0_wf : DotDims.WF S9x4096x512 S9x512x1 S9x4096x1 [2] [1] [1] [2] [0] [0]

variable [Facts₀]

def dot_S9x4096x2048_S2048x512_S9x4096x512_2_0_01_1_n_n : DotDims S9x4096x2048 S2048x512 S9x4096x512 where
  lhsContracting := [2]
  rhsContracting := [0]
  lhsNonContracting := [0, 1]
  rhsNonContracting := [1]
  lhsBatch := []
  rhsBatch := []
  wf := dot_S9x4096x2048_S2048x512_S9x4096x512_2_0_01_1_n_n_wf
def dot_S9x4096x512_S9x512x4_S9x4096x4_2_1_1_2_0_0 : DotDims S9x4096x512 S9x512x4 S9x4096x4 where
  lhsContracting := [2]
  rhsContracting := [1]
  lhsNonContracting := [1]
  rhsNonContracting := [2]
  lhsBatch := [0]
  rhsBatch := [0]
  wf := dot_S9x4096x512_S9x512x4_S9x4096x4_2_1_1_2_0_0_wf
def dot_S9x4096x2048_S9x2048x4_S9x4096x4_2_1_1_2_0_0 : DotDims S9x4096x2048 S9x2048x4 S9x4096x4 where
  lhsContracting := [2]
  rhsContracting := [1]
  lhsNonContracting := [1]
  rhsNonContracting := [2]
  lhsBatch := [0]
  rhsBatch := [0]
  wf := dot_S9x4096x2048_S9x2048x4_S9x4096x4_2_1_1_2_0_0_wf
def dot_S9x4096x2048_S9x2048x21_S9x4096x21_2_1_1_2_0_0 : DotDims S9x4096x2048 S9x2048x21 S9x4096x21 where
  lhsContracting := [2]
  rhsContracting := [1]
  lhsNonContracting := [1]
  rhsNonContracting := [2]
  lhsBatch := [0]
  rhsBatch := [0]
  wf := dot_S9x4096x2048_S9x2048x21_S9x4096x21_2_1_1_2_0_0_wf
def dot_S9x4096x512_S9x512x1_S9x4096x1_2_1_1_2_0_0 : DotDims S9x4096x512 S9x512x1 S9x4096x1 where
  lhsContracting := [2]
  rhsContracting := [1]
  lhsNonContracting := [1]
  rhsNonContracting := [2]
  lhsBatch := [0]
  rhsBatch := [0]
  wf := dot_S9x4096x512_S9x512x1_S9x4096x1_2_1_1_2_0_0_wf

class Facts : Prop extends Facts₀ where

variable [Facts]
-- ==== Proof.LibRowSoftmax.lean ====
/-
  A row softmax on the extended reals, written the way a program computes it, and a row in which only a run of
  lanes carries scores.

  The maximum of a row is taken from −∞ (twice over: the reduction starts at −∞ and its result is joined with −∞
  once more); the softmax at lane j is exp (r j − max) over the sum, taken from 0, of exp (r k − max).  A row of N
  lanes in which only the lanes lo ≤ j < lo + n carry scores, every other lane holding −∞, is `mrow lo n r`.
-/
import Idealize.ShloMosaic.PureOps.Ideal.Laws

noncomputable section

namespace Cert.LibRowSoftmax

open Idealize.ShloMosaic

/-- A row's maximum, taken from −∞ and joined with −∞ once more. -/
def rowMax {n : ℕ} (r : Fin n → EReal) : EReal := max ⊥ ((Finset.univ : Finset (Fin n)).fold max ⊥ r)

/-- A row's softmax at lane j: exp (r j − max) over the sum, from 0, of exp (r k − max). -/
def rowSoft {n : ℕ} (r : Fin n → EReal) (j : Fin n) : EReal :=
  Ideal.div (Ideal.exp (r j - rowMax r)) (0 + ∑ k : Fin n, Ideal.exp (r k - rowMax r))

/-- A row of N lanes of which only the lanes lo ≤ j < lo + n carry scores; every other lane holds −∞. -/
def mrow {N : ℕ} (lo n : ℕ) (r : Fin N → EReal) (j : Fin N) : EReal :=
  if lo ≤ j.val ∧ j.val < lo + n then r j else ⊥

end Cert.LibRowSoftmax

end
-- ==== Proof.Spec.lean ====
/-
  The mathematics of the fused projection, on the extended reals, with no program in sight.

  X is the 9 × 4096 × 2048 feature array, A the 2048 × 512 projection.  Three quantities are built from them:
  the rectified projection  feat(g,n,e) = max(Σ_d X(g,n,d)·A(d,e), 0);  a product of the raw features with a
  per-slice weight slab,  proj1(g,n,j) = Σ_d X(g,n,d)·W(g,d,j);  and a product of the rectified projection with a
  per-slice weight slab,  proj2(g,n,j) = Σ_e feat(g,n,e)·W(g,e,j).  The row softmax and the row with only a run of
  live lanes are the ones of the row-softmax lemma file.
-/
import proofs.«123543_j10943576670543_2_alg».proof.Proof.LibRowSoftmax
import Idealize.ShloMosaic.Lib.ValueIdx
import Idealize.ShloMosaic.PureOps.Ideal.Laws

noncomputable section

namespace Cert.Spec

open Idealize.ShloMosaic Idealize.ShloMosaic.ValueIdx Cert.LibRowSoftmax

/-- A three-axis array of extended reals. -/
abbrev Arr3 (a b c : ℕ) : Type := (⟨3, ![a, b, c]⟩ : Shape).Idx → EReal
/-- A two-axis array of extended reals. -/
abbrev Arr2 (a b : ℕ) : Type := (⟨2, ![a, b]⟩ : Shape).Idx → EReal

/-- The rectified projection of row (g, n) of the features onto column e. -/
def feat (X : Arr3 9 4096 2048) (A : Arr2 2048 512) (g : Fin 9) (n : Fin 4096) (e : Fin 512) : EReal :=
  max (∑ d : Fin 2048, X (ix3 g n d) * A (ix2 d e)) 0

/-- Row (g, n) of the features against column j of slice g of a weight slab of w columns. -/
def proj1 {w : ℕ} (X : Arr3 9 4096 2048) (W : Arr3 9 2048 w) (g : Fin 9) (n : Fin 4096) (j : Fin w) : EReal :=
  ∑ d : Fin 2048, X (ix3 g n d) * W (ix3 g d j)

/-- Row (g, n) of the rectified projection against column j of slice g of a weight slab of w columns. -/
def proj2 {w : ℕ} (X : Arr3 9 4096 2048) (A : Arr2 2048 512) (W : Arr3 9 512 w) (g : Fin 9) (n : Fin 4096)
    (j : Fin w) : EReal :=
  ∑ e : Fin 512, feat X A g n e * W (ix3 g e j)

/-- The second output slab: the rectified projection against the padded weight slab W3. -/
def out1 (X : Arr3 9 4096 2048) (A : Arr2 2048 512) (W3 : Arr3 9 512 128) : Arr3 9 4096 128 :=
  fun i => proj2 X A W3 (i 0) (i 1) (i 2)

/-- The first output slab: the raw product against the padded weight slab W1, with lanes 4 ≤ j < 25 replaced by
    the softmax of the row restricted to those lanes. -/
def out0 (X : Arr3 9 4096 2048) (W1 : Arr3 9 2048 128) : Arr3 9 4096 128 :=
  fun i => if 4 ≤ (i 2).val ∧ (i 2).val < 4 + 21 then rowSoft (mrow 4 21 (proj1 X W1 (i 0) (i 1))) (i 2)
    else proj1 X W1 (i 0) (i 1) (i 2)

end Cert.Spec

end
-- ==== Proof.LibDot.lean ====
/-
  A matrix product read at an index, on the extended reals.

  For a rows × contraction by contraction × columns product — the dimension numbers that contract the left operand's
  second axis with the right operand's first, with no batch axis — the entry at (i, j) of the host's `dot_general`,
  and of a `tpu.matmul` accumulated into the zero splat, is the plain sum over the contraction coordinate k of
  l (i, k) · r (k, j). The sum over the product's own contraction index is re-indexed through the bijection between a
  one-axis contraction index and its coordinate; the operand indices are computed from the dimension numbers.
  Nothing here needs finiteness: only that the sum is re-indexed.
-/
import Idealize.ShloMosaic.Lib.ValueIdx
import Idealize.ShloMosaic.PureOps.Ideal.Laws

noncomputable section

namespace Cert.LibDot

open Idealize.ShloMosaic Idealize.ShloMosaic.ValueIdx

variable {M K N : Nat}

/-- The contraction of row `y 0` of `l` with column `y 1` of `r`: the sum over the product's contraction index is
    the sum over the one contracted coordinate. -/
theorem sum_plain (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (l : (⟨2, ![M, K]⟩ : Shape).Idx → EReal) (r : (⟨2, ![K, N]⟩ : Shape).Idx → EReal) (y : (⟨2, ![M, N]⟩ : Shape).Idx) :
    ∑ q : d.contr.Idx, l (d.lhsIdx y q) * r (d.rhsIdx y q) = ∑ k : Fin K, l (ix2 (y 0) k) * r (ix2 k (y 1)) := by
  obtain ⟨lc, rc, ln, rn, lb, rb, wf⟩ := d
  dsimp only at hlc hrc hln hrn hlb hrb
  subst hlc hrc hln hrn hlb hrb
  rw [← Equiv.sum_comp (contrEquiv1 (⟨[1], [0], [0], [1], [], [], wf⟩ : DotDims ⟨2, ![M, K]⟩ ⟨2, ![K, N]⟩ ⟨2, ![M, N]⟩) K rfl rfl).symm]
  refine Finset.sum_congr rfl fun k _ => ?_
  have hk := contrEquiv1_symm_val (⟨[1], [0], [0], [1], [], [], wf⟩ : DotDims ⟨2, ![M, K]⟩ ⟨2, ![K, N]⟩ ⟨2, ![M, N]⟩) K rfl rfl k
  have el : DotDims.lhsIdx (⟨[1], [0], [0], [1], [], [], wf⟩ : DotDims ⟨2, ![M, K]⟩ ⟨2, ![K, N]⟩ ⟨2, ![M, N]⟩) y
      ((contrEquiv1 (⟨[1], [0], [0], [1], [], [], wf⟩ : DotDims ⟨2, ![M, K]⟩ ⟨2, ![K, N]⟩ ⟨2, ![M, N]⟩) K rfl rfl).symm k)
      = ix2 (y 0) k := funext fun a => Fin.ext (by
    match a with
    | ⟨0, _⟩ =>
      unfold DotDims.lhsIdx
      rw [dif_neg (by simp), dif_pos (by simp)]
      rfl
    | ⟨1, _⟩ => exact (DotDims.lhsIdx_val_of_single _ rfl y _).trans hk)
  have er : DotDims.rhsIdx (⟨[1], [0], [0], [1], [], [], wf⟩ : DotDims ⟨2, ![M, K]⟩ ⟨2, ![K, N]⟩ ⟨2, ![M, N]⟩) y
      ((contrEquiv1 (⟨[1], [0], [0], [1], [], [], wf⟩ : DotDims ⟨2, ![M, K]⟩ ⟨2, ![K, N]⟩ ⟨2, ![M, N]⟩) K rfl rfl).symm k)
      = ix2 k (y 1) := funext fun a => Fin.ext (by
    match a with
    | ⟨0, _⟩ => exact (DotDims.rhsIdx_val_of_single _ rfl y _).trans hk
    | ⟨1, _⟩ =>
      unfold DotDims.rhsIdx
      rw [dif_neg (by simp), dif_pos (by simp)]
      rfl)
  rw [el, er]
  rfl

variable {φ₁ φ₂ : FTy}

/-- The host's `dot_general` of those dimension numbers, at an index: the sum over the contracted coordinate. -/
theorem dotGeneral_plain_apply (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (sched : HostSchedule)
    (l : FVec Ideal ⟨2, ![M, K]⟩ φ₁) (r : FVec Ideal ⟨2, ![K, N]⟩ φ₂) (y : (⟨2, ![M, N]⟩ : Shape).Idx) :
    FloatOps.dotGeneral d prec sched l r y = ∑ k : Fin K, l (ix2 (y 0) k) * r (ix2 k (y 1)) := by
  rw [Ideal.dotGeneral_apply]
  exact sum_plain d hlc hrc hln hrn hlb hrb l r y

/-- A `tpu.matmul` of those dimension numbers into the zero accumulator, at an index: the same sum. -/
theorem matmul_zero_plain_apply (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision)
    (l : FVec Ideal ⟨2, ![M, K]⟩ φ₁) (r : FVec Ideal ⟨2, ![K, N]⟩ φ₂) (y : (⟨2, ![M, N]⟩ : Shape).Idx) :
    FloatOps.matmul d prec l r (constant ⟨2, ![M, N]⟩ .f32 0x00000000#32) y
      = ∑ k : Fin K, l (ix2 (y 0) k) * r (ix2 k (y 1)) := by
  rw [Ideal.matmul_constant_zero_apply]
  exact sum_plain d hlc hrc hln hrn hlb hrb l r y

end Cert.LibDot

end
-- ==== Proof.LibColumn.lean ====
/-
  A column of per-row values laid beside a matrix, read at an index.

  A reduction over a matrix's second axis with the axis kept ("keepdims") leaves one value per row, stored as a
  vector of length a, re-cast as an a × 1 column, and then broadcast across the b columns of the matrix it is
  combined with.  At entry (p, c) each of these re-layings reads the one value of row p: the cast keeps the row-major
  position, and the broadcast reads a unit axis at coordinate 0 whatever the column.
-/
import Idealize.ShloMosaic.Lib.Pipeline.Value
import Idealize.ShloMosaic.Lib.ValueIdx

namespace Cert.LibColumn

open Idealize.ShloMosaic Idealize.ShloMosaic.ValueIdx

variable {α : Type}

/-- A vector of length `a` cast to an `a × 1` column reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `a × 1` column cast to itself is itself. -/
theorem shapeCast_a1_a1_apply {a : ℕ} (x : (⟨2, ![a, 1]⟩ : Shape).Idx → α) (h : (⟨2, ![a, 1]⟩ : Shape).ShapeCasts ⟨2, ![a, 1]⟩)
    (j : (⟨2, ![a, 1]⟩ : Shape).Idx) : shapeCast ⟨2, ![a, 1]⟩ x h j = x j := by
  rw [shapeCast_self]

/-- An `a × 1` column broadcast across `b` columns reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show 0 = if (1 : ℕ) = 1 then 0 else c.val
    rw [if_pos rfl]

end Cert.LibColumn
-- ==== Proof.LibRows.lean ====
/-
  Rows of a matrix, read at an index, on the extended reals.

  For an a × b matrix v: the sum along the second axis, read at row p, is the sum over k of v (p, k); the maximum
  along the second axis, read at row p, is the fold of max over k of v (p, k) from the start value the accumulator
  word denotes; and one value per row, re-cast as an a × 1 column and laid across c columns ("keepdims", then a
  broadcast), reads at (p, q) the value of row p.  The index of the matrix that a row index with the coordinate k
  put back on the second axis names is (p, k).  All for any extents; nothing is evaluated.
-/
import proofs.«123543_j10943576670543_2_alg».proof.Proof.LibColumn
import Idealize.ShloMosaic.Lib.ValueIdx
import Idealize.ShloMosaic.Lib.Pipeline.Value
import Idealize.ShloMosaic.PureOps.Ideal.Laws

noncomputable section

namespace Cert.LibRows

open Idealize.ShloMosaic Idealize.ShloMosaic.ValueIdx

variable {a b : ℕ}

/-- The index of a matrix over row p with coordinate k put on the second axis is (p, k). -/
theorem lift_row (h : (⟨2, ![a, b]⟩ : Shape).Reduces [1] ⟨1, ![a]⟩) (p : Fin a) (k : Fin b) :
    h.lift (ix1 p) k = ix2 p k := by
  funext c
  match c with
  | ⟨0, _⟩ => exact Fin.ext rfl
  | ⟨1, _⟩ => exact Fin.ext rfl

/-- A sum along the second axis, read at row p: the sum of the row's entries. -/
theorem rowSum_apply {φ : FTy} (v : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (p : Fin a) :
    multiReduction .add [1] ⟨1, ![a]⟩ v acc h hφ hacc (ix1 p) = ∑ k : Fin b, v (ix2 p k) :=
  (Ideal.multiReduction_add_single v acc h hφ hacc (ix1 p)).trans
    (Finset.sum_congr rfl fun k _ => congrArg v (lift_row h p k))

/-- A maximum along the second axis, read at row p: the fold of max over the row's entries from the start value. -/
theorem rowMaxf_apply {φ : FTy} (v : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (p : Fin a) :
    multiReduction .maximumf [1] ⟨1, ![a]⟩ v acc h hφ hacc (ix1 p)
      = (Finset.univ : Finset (Fin b)).fold max (Ideal.ofBits φ acc) (fun k => v (ix2 p k)) :=
  (Ideal.multiReduction_maximumf_single v acc h hφ hacc (ix1 p)).trans
    (Finset.fold_congr fun k _ => congrArg v (lift_row h p k))

/-- One value per row, re-cast as a column and laid across c columns, read at (p, q): the value of row p. -/
theorem column_apply {α : Type} {c : ℕ} (u : (⟨1, ![a]⟩ : Shape).Idx → α)
    (hc : (⟨1, ![a]⟩ : Shape).ShapeCasts ⟨2, ![a, 1]⟩) (hb : (⟨2, ![a, 1]⟩ : Shape).Broadcasts ⟨2, ![a, c]⟩)
    (p : Fin a) (q : Fin c) :
    broadcastTo ⟨2, ![a, c]⟩ (shapeCast ⟨2, ![a, 1]⟩ u hc) hb (ix2 p q) = u (ix1 p) :=
  (Cert.LibColumn.broadcastTo_a1_ab_apply (shapeCast ⟨2, ![a, 1]⟩ u hc) hb p q).trans
    (Cert.LibColumn.shapeCast_a_a1_apply u hc p 0)

end Cert.LibRows

end
-- ==== Proof.Body.lean ====
/-
  The kernel body's two stored blocks, read at an index, on the extended reals.

  One run of the body reads a [1, 1024, 2048] block X of the features, the 2048 × 512 projection A, a
  [1, 2048, 128] block W1 and a [1, 512, 128] block W3 of the two weight slabs, and stores two [1, 1024, 128] blocks,
  each through one whole-block store. Read at (0, p, j):
  the second block is  Σ_e max(Σ_d X(0,p,d)·A(d,e), 0) · W3(0,e,j)  — the format changes are the identity on the
  extended reals, the three matrix products accumulate into zero, the rectifier is a maximum with the zero word;
  the first block is  Σ_d X(0,p,d)·W1(0,d,j)  on the lanes outside 4 ≤ j < 25, and on those lanes the softmax of the
  row in which every other lane holds −∞: the lane test is decided once over the 128 lanes, the constant written
  on the dead lanes is the named −∞, the row maximum is a reduction from −∞ joined with −∞ once more, and the
  denominator is the row sum of the exponentials, laid back across the lanes.
-/
import proofs.«123543_j10943576670543_2_alg».proof.Proof.Gen.KernelIdeal.Frame
import proofs.«123543_j10943576670543_2_alg».proof.Proof.Spec
import proofs.«123543_j10943576670543_2_alg».proof.Proof.LibDot
import proofs.«123543_j10943576670543_2_alg».proof.Proof.LibRows
import Idealize.ShloMosaic.Lib.Pipeline.Value
import Idealize.ShloMosaic.Lib.ValueIdx
import Idealize.ShloMosaic.PureOps.Ideal.Laws

noncomputable section

namespace Cert.KernelIdeal.Body

open Cert.KernelIdeal Cert.KernelIdeal.Gen Idealize.ShloMosaic Idealize.ShloMosaic.ValueIdx Cert.LibRowSoftmax

/-- The three zero offsets of a whole three-axis block, as the constant-zero function. -/
theorem zeros3 : (![0, 0, 0] : Fin 3 → Nat) = fun _ => 0 := funext fun a => by fin_cases a <;> rfl
/-- The two zero offsets of a whole two-axis block, as the constant-zero function. -/
theorem zeros2 : (![0, 0] : Fin 2 → Nat) = fun _ => 0 := funext fun a => by fin_cases a <;> rfl

/-- A [1, a, b] block viewed as an a × b matrix reads (0, p, q) at (p, q). -/
theorem dropUnit_apply {α : Type} {a b : ℕ} (v : (⟨3, ![1, a, b]⟩ : Shape).Idx → α)
    (h : (⟨3, ![1, a, b]⟩ : Shape).ShapeCasts ⟨2, ![a, b]⟩) (p : Fin a) (q : Fin b) :
    shapeCast ⟨2, ![a, b]⟩ v h (ix2 p q) = v (ix3 (0 : Fin 1) p q) := by
  refine (shapeCast_dropUnit_apply ![a, b] v h (ix2 p q)).trans (congrArg v ?_)
  funext c
  match c with
  | ⟨0, _⟩ => rfl
  | ⟨1, _⟩ => rfl
  | ⟨2, _⟩ => rfl

/-- An a × b matrix stored as a [1, a, b] block reads (p, q) at (0, p, q). -/
theorem addUnit_apply {α : Type} {a b : ℕ} (v : (⟨2, ![a, b]⟩ : Shape).Idx → α)
    (h : (⟨2, ![a, b]⟩ : Shape).ShapeCasts ⟨3, ![1, a, b]⟩) (p : Fin a) (q : Fin b) :
    shapeCast ⟨3, ![1, a, b]⟩ v h (ix3 (0 : Fin 1) p q) = v (ix2 p q) := by
  refine (shapeCast_addUnit_apply ![a, b] v h (ix3 (0 : Fin 1) p q)).trans (congrArg v ?_)
  funext c
  match c with
  | ⟨0, _⟩ => rfl
  | ⟨1, _⟩ => rfl

/-- The features' block, cast to a matrix and narrowed, reads the block's entry. -/
theorem pay3_apply (x0 : Vec Ideal S1x1024x2048 .f32) (p : Fin 1024) (d : Fin 2048) :
    Gen.k0_pay3 (F := Ideal) x0 (ix2 p d) = x0 (ix3 (0 : Fin 1) p d) := by
  unfold Gen.k0_pay3
  exact dropUnit_apply x0 shapeCasts_S1x1024x2048_S1024x2048 p d

/-- The second product of the body at (p, j): the rectified projection of row p against column j of the weight block. -/
theorem pay4_apply (x0 : Vec Ideal S1x1024x2048 .f32) (x1 : Vec Ideal S2048x512 .f32) (x3 : Vec Ideal S1x512x128 .f32)
    (p : Fin 1024) (j : Fin 128) :
    Gen.k0_pay4 (F := Ideal) x0 x1 x3 (ix2 p j)
      = ∑ e : Fin 512, max (∑ d : Fin 2048, x0 (ix3 (0 : Fin 1) p d) * x1 (ix2 d e)) 0 * x3 (ix3 (0 : Fin 1) e j) := by
  unfold Gen.k0_pay4
  refine (Cert.LibDot.matmul_zero_plain_apply dot_S1024x512_S512x128_S1024x128_1_0_0_1_n_n rfl rfl rfl rfl rfl rfl none _ _ (ix2 p j)).trans ?_
  refine Finset.sum_congr rfl fun e _ => ?_
  show (truncf .bf16 (maximumf _ _) bitsLt_bf16_f32 : FVec Ideal S1024x512 .bf16) (ix2 p e) * (truncf .bf16 _ bitsLt_bf16_f32 : FVec Ideal S512x128 .bf16) (ix2 e j) = _
  rw [truncf_apply, truncf_apply, maximumf_apply, broadcast_apply, dropUnit_apply x3 shapeCasts_S1x512x128_S512x128 e j]
  refine congrArg₂ (· * ·) (congrArg₂ max ?_ Ideal.ofBits_zero_f32) rfl
  refine (Cert.LibDot.matmul_zero_plain_apply dot_S1024x2048_S2048x512_S1024x512_1_0_0_1_n_n rfl rfl rfl rfl rfl rfl none _ _ (ix2 p e)).trans ?_
  refine Finset.sum_congr rfl fun d _ => ?_
  rw [pay3_apply, truncf_apply]

/-- The second stored block at (0, p, j): the rectified projection of row p against column j of the weight block. -/
theorem out5_apply (x0 : Vec Ideal S1x1024x2048 .f32) (x1 : Vec Ideal S2048x512 .f32) (x2 : Vec Ideal S1x2048x128 .f32)
    (x3 : Vec Ideal S1x512x128 .f32) (p : Fin 1024) (j : Fin 128) :
    Gen.out0_5 (F := Ideal) x0 x1 x2 x3 (ix3 (0 : Fin 1) p j)
      = ∑ e : Fin 512, max (∑ d : Fin 2048, x0 (ix3 (0 : Fin 1) p d) * x1 (ix2 d e)) 0 * x3 (ix3 (0 : Fin 1) e j) := by
  unfold Gen.out0_5
  rw [View.canon_unit_zero zeros3]
  simp only [View.ld_unit_zero (S := S1x1024x2048) zeros3, View.ld_unit_zero (S := S2048x512) zeros2,
    View.ld_unit_zero (S := S1x512x128) zeros3]
  unfold Gen.k0_pay2
  exact (addUnit_apply _ shapeCasts_S1024x128_S1x1024x128 p j).trans (pay4_apply x0 x1 x3 p j)

/-- The body's lane test on lane j: the conjunction of "4 ≤ j" and "j < 25" as one-bit words is 1 exactly on the
    lanes 4 ≤ j < 4 + 21. -/
theorem lane_bit (j : Fin 128) :
    IntOp.andi (IntOp.cmpi .sge (BitVec.ofNat 32 j.val) 4#32) (IntOp.cmpi .slt (BitVec.ofNat 32 j.val) 25#32)
      = if 4 ≤ j.val ∧ j.val < 4 + 21 then 1#1 else 0#1 := by
  revert j; decide

/-- The lane test's vector read at (p, j). -/
theorem lane_apply (p : Fin 1024) (j : Fin 128) :
    andi (cmpi .sge (iota .tc S1024x128 32 [1] iota_S1024x128_d1_w32) (broadcast S1024x128 4#32))
        (cmpi .slt (iota .tc S1024x128 32 [1] iota_S1024x128_d1_w32) (broadcast S1024x128 25#32)) (ix2 p j)
      = if 4 ≤ j.val ∧ j.val < 4 + 21 then 1#1 else 0#1 := by
  show IntOp.andi (IntOp.cmpi .sge (iota .tc S1024x128 32 [1] iota_S1024x128_d1_w32 (ix2 p j)) 4#32)
      (IntOp.cmpi .slt (iota .tc S1024x128 32 [1] iota_S1024x128_d1_w32 (ix2 p j)) 25#32) = _
  rw [iota_single_apply]
  exact lane_bit j

/-- The named constant "neg_big" denotes −∞. -/
theorem neg_big : Named.named (F := Ideal) κ "neg_big" (φ := .f32) 0xFF333332#32 = (⊥ : EReal) :=
  IdealRules.named_const.ideal_named_scalar _ _ _ _ rfl

/-- A matrix whose dead lanes are overwritten with −∞, read at (p, k): row p with only the lanes 4 ≤ k < 25 live. -/
theorem masked_apply (c : IVec S1024x128 1) (raw : FVec Ideal S1024x128 .f32)
    (hc : ∀ (q : Fin 1024) (k : Fin 128), c (ix2 q k) = if 4 ≤ k.val ∧ k.val < 4 + 21 then 1#1 else 0#1)
    (p : Fin 1024) (k : Fin 128) :
    select c raw (broadcast S1024x128 (Named.named (F := Ideal) κ "neg_big" (φ := .f32) 0xFF333332#32)) (ix2 p k)
      = mrow 4 21 (fun j' : Fin 128 => raw (ix2 p j')) k := by
  rw [select_apply, hc, broadcast_apply, neg_big]
  unfold mrow
  by_cases h : 4 ≤ k.val ∧ k.val < 4 + 21
  · rw [if_pos h, if_pos h, select_one]
  · rw [if_neg h, if_neg h, select_zero]

/-- The word 0xFF800000 denotes −∞. -/
theorem neg_inf : Ideal.ofBits .f32 0xFF800000#32 = (⊥ : EReal) := by simp [Ideal.ofBits, Ideal.ieee]

/-- The row maximum the body takes (a reduction from −∞, joined with −∞ once more), read at row p. -/
theorem rmax_apply (m : FVec Ideal S1024x128 .f32) (hφ : FKind.Formats .f32)
    (hacc : (0xFF800000#32 : BitVec FTy.f32.bits) = FKind.maximumf.neutral .f32 hφ) (p : Fin 1024) :
    maximumf (broadcast S1024 (FloatOps.ofBits (F := Ideal) .f32 0xFF800000#32))
        (multiReduction .maximumf [1] S1024 m 0xFF800000#32 reduces_S1024x128_S1024 hφ hacc) (ix1 p)
      = rowMax (fun k : Fin 128 => m (ix2 p k)) := by
  rw [maximumf_apply, broadcast_apply]
  refine congrArg₂ max neg_inf ?_
  refine (Cert.LibRows.rowMaxf_apply m 0xFF800000#32 reduces_S1024x128_S1024 hφ hacc p).trans ?_
  rw [neg_inf]

/-- The first product of the body at (p, j): row p of the features' block against column j of the weight block. -/
theorem raw_apply (x0 : Vec Ideal S1x1024x2048 .f32) (x2 : Vec Ideal S1x2048x128 .f32) (p : Fin 1024) (j : Fin 128) :
    matmul dot_S1024x2048_S2048x128_S1024x128_1_0_0_1_n_n none (Gen.k0_pay3 (F := Ideal) x0)
        (truncf .bf16 (shapeCast S2048x128 x2 shapeCasts_S1x2048x128_S2048x128) bitsLt_bf16_f32 : FVec Ideal S2048x128 .bf16)
        (constant S1024x128 .f32 0x00000000#32) (ix2 p j)
      = ∑ d : Fin 2048, x0 (ix3 (0 : Fin 1) p d) * x2 (ix3 (0 : Fin 1) d j) := by
  refine (Cert.LibDot.matmul_zero_plain_apply dot_S1024x2048_S2048x128_S1024x128_1_0_0_1_n_n rfl rfl rfl rfl rfl rfl none _ _ (ix2 p j)).trans ?_
  refine Finset.sum_congr rfl fun d _ => ?_
  rw [pay3_apply, truncf_apply, dropUnit_apply x2 shapeCasts_S1x2048x128_S2048x128 d j]

/-- The selected matrix of the body at (p, j): on the lanes 4 ≤ j < 25 the softmax of row p of the first product with
    every other lane at −∞, elsewhere the first product itself. -/
theorem pay5_apply (x0 : Vec Ideal S1x1024x2048 .f32) (x2 : Vec Ideal S1x2048x128 .f32) (p : Fin 1024) (j : Fin 128) :
    Gen.k0_pay5 (F := Ideal) x0 x2 (ix2 p j)
      = if 4 ≤ j.val ∧ j.val < 4 + 21
        then rowSoft (mrow 4 21 fun j' : Fin 128 => ∑ d : Fin 2048, x0 (ix3 (0 : Fin 1) p d) * x2 (ix3 (0 : Fin 1) d j')) j
        else ∑ d : Fin 2048, x0 (ix3 (0 : Fin 1) p d) * x2 (ix3 (0 : Fin 1) d j) := by
  unfold Gen.k0_pay5
  dsimp only
  have hc := lane_apply
  have hraw := raw_apply x0 x2
  generalize andi (cmpi .sge (iota .tc S1024x128 32 [1] iota_S1024x128_d1_w32) (broadcast S1024x128 4#32))
        (cmpi .slt (iota .tc S1024x128 32 [1] iota_S1024x128_d1_w32) (broadcast S1024x128 25#32)) = c at hc ⊢
  generalize matmul dot_S1024x2048_S2048x128_S1024x128_1_0_0_1_n_n none (Gen.k0_pay3 (F := Ideal) x0)
        (truncf .bf16 (shapeCast S2048x128 x2 shapeCasts_S1x2048x128_S2048x128) bitsLt_bf16_f32 : FVec Ideal S2048x128 .bf16)
        (constant S1024x128 .f32 0x00000000#32) = raw at hraw ⊢
  have hm := masked_apply c raw hc
  generalize select c raw (broadcast S1024x128 (Named.named (F := Ideal) κ "neg_big" (φ := .f32) 0xFF333332#32)) = m at hm ⊢
  have hM := rmax_apply m (.inl rfl) rfl
  generalize maximumf (broadcast S1024 (FloatOps.ofBits (F := Ideal) .f32 0xFF800000#32))
        (multiReduction .maximumf [1] S1024 m 0xFF800000#32 reduces_S1024x128_S1024 (.inl rfl) rfl) = M at hM ⊢
  have hE : ∀ (q : Fin 1024) (k : Fin 128),
      exp (subf m (broadcastTo S1024x128 (shapeCast S1024x1 M shapeCasts_S1024_S1024x1) broadcasts_S1024x1_S1024x128)) (ix2 q k)
        = Ideal.exp (m (ix2 q k) - M (ix1 q)) := fun q k => by
    show Ideal.exp (subf m _ (ix2 q k)) = _
    rw [subf_apply, Cert.LibRows.column_apply]
  generalize exp (subf m (broadcastTo S1024x128 (shapeCast S1024x1 M shapeCasts_S1024_S1024x1) broadcasts_S1024x1_S1024x128)) = E at hE ⊢
  have hrow : (fun k : Fin 128 => m (ix2 p k))
      = mrow 4 21 (fun j' : Fin 128 => ∑ d : Fin 2048, x0 (ix3 (0 : Fin 1) p d) * x2 (ix3 (0 : Fin 1) d j')) :=
    funext fun k => (hm p k).trans (congrArg (fun r => mrow 4 21 r k) (funext fun j' => hraw p j'))
  have hmk : ∀ k : Fin 128, m (ix2 p k)
      = mrow 4 21 (fun j' : Fin 128 => ∑ d : Fin 2048, x0 (ix3 (0 : Fin 1) p d) * x2 (ix3 (0 : Fin 1) d j')) k :=
    fun k => congrFun hrow k
  rw [select_apply, hc, divf_apply, Cert.LibRows.column_apply]
  by_cases h : 4 ≤ j.val ∧ j.val < 4 + 21
  · rw [if_pos h, if_pos h, select_one]
    refine (congrArg (Ideal.div (E (ix2 p j))) (Cert.LibRows.rowSum_apply E 0x00000000#32 reduces_S1024x128_S1024 (.inl rfl) rfl p)).trans ?_
    unfold rowSoft
    rw [zero_add]
    simp only [hE, hM, hrow, hmk]
  · rw [if_neg h, if_neg h, select_zero]
    exact hraw p j

/-- The first stored block at (0, p, j): the raw product of row p against column j of the weight block, with the
    lanes 4 ≤ j < 25 replaced by the softmax of the row restricted to those lanes. -/
theorem out4_apply (x0 : Vec Ideal S1x1024x2048 .f32) (x1 : Vec Ideal S2048x512 .f32) (x2 : Vec Ideal S1x2048x128 .f32)
    (x3 : Vec Ideal S1x512x128 .f32) (p : Fin 1024) (j : Fin 128) :
    Gen.out0_4 (F := Ideal) x0 x1 x2 x3 (ix3 (0 : Fin 1) p j)
      = if 4 ≤ j.val ∧ j.val < 4 + 21
        then rowSoft (mrow 4 21 fun j' : Fin 128 => ∑ d : Fin 2048, x0 (ix3 (0 : Fin 1) p d) * x2 (ix3 (0 : Fin 1) d j')) j
        else ∑ d : Fin 2048, x0 (ix3 (0 : Fin 1) p d) * x2 (ix3 (0 : Fin 1) d j) := by
  unfold Gen.out0_4
  rw [View.canon_unit_zero zeros3]
  simp only [View.ld_unit_zero (S := S1x1024x2048) zeros3, View.ld_unit_zero (S := S1x2048x128) zeros3]
  unfold Gen.k0_pay1
  exact (addUnit_apply _ shapeCasts_S1024x128_S1x1024x128 p j).trans (pay5_apply x0 x2 p j)

end Cert.KernelIdeal.Body

end
-- ==== Proof.Blocks.lean ====
/-
  From blocks to arrays: what the two output slabs hold after the run.

  The grid has 9 × 4 points; point (g, b) reads rows 1024·b … 1024·b + 1023 of slice g of the features, the whole
  projection, and slice g of each padded weight slab, and writes rows 1024·b … of slice g of each output slab.
  What it writes is the block of ONE whole-array function (Spec.out0, Spec.out1) of the arrays the region finds;
  the 36 blocks tile each output slab, so after the run each slab IS that function.
-/
import proofs.«123543_j10943576670543_2_alg».proof.Proof.Gen.KernelIdeal.Frame
import proofs.«123543_j10943576670543_2_alg».proof.Proof.Spec
import proofs.«123543_j10943576670543_2_alg».proof.Proof.Body
import Idealize.ShloMosaic.Lib.Pipeline.Value
import Idealize.ShloMosaic.Lib.ValueIdx

noncomputable section

namespace Cert.KernelIdeal.Blocks

open Cert.KernelIdeal Cert.KernelIdeal.Gen Idealize.ShloMosaic Idealize.ShloMosaic.TcCoe Idealize.SL.Sem
open Idealize.ShloMosaic.ValueIdx Cert.LibRowSoftmax
open Idealize.ShloMosaic.Pipeline (Dat)

variable (m : (ℓ : Loc nD τ sig) → Buf (Elt Ideal) ℓ) (ρ : Dev nD → PrngReg)

/-- The first slab's block at row p, lane j, from blocks that are rows of the arrays: the slab's function there. -/
theorem blk4_eq (X : Spec.Arr3 9 4096 2048) (W1 : Spec.Arr3 9 2048 128)
    (x0 : Vec Ideal S1x1024x2048 .f32) (x1 : Vec Ideal S2048x512 .f32) (x2 : Vec Ideal S1x2048x128 .f32)
    (x3 : Vec Ideal S1x512x128 .f32) (g : Fin 9) (n : Fin 4096) (p : Fin 1024) (j : Fin 128)
    (h0 : ∀ d : Fin 2048, x0 (ix3 (0 : Fin 1) p d) = X (ix3 g n d))
    (h2 : ∀ (d : Fin 2048) (j' : Fin 128), x2 (ix3 (0 : Fin 1) d j') = W1 (ix3 g d j')) :
    Gen.out0_4 (F := Ideal) x0 x1 x2 x3 (ix3 (0 : Fin 1) p j) = Spec.out0 X W1 (ix3 g n j) := by
  rw [Body.out4_apply]
  unfold Spec.out0 Spec.proj1
  simp only [h0, h2]

/-- The second slab's block at row p, lane j, likewise. -/
theorem blk5_eq (X : Spec.Arr3 9 4096 2048) (A : Spec.Arr2 2048 512) (W3 : Spec.Arr3 9 512 128)
    (x0 : Vec Ideal S1x1024x2048 .f32) (x1 : Vec Ideal S2048x512 .f32) (x2 : Vec Ideal S1x2048x128 .f32)
    (x3 : Vec Ideal S1x512x128 .f32) (g : Fin 9) (n : Fin 4096) (p : Fin 1024) (j : Fin 128)
    (h0 : ∀ d : Fin 2048, x0 (ix3 (0 : Fin 1) p d) = X (ix3 g n d))
    (h1 : ∀ (d : Fin 2048) (e : Fin 512), x1 (ix2 d e) = A (ix2 d e))
    (h3 : ∀ (e : Fin 512) (j' : Fin 128), x3 (ix3 (0 : Fin 1) e j') = W3 (ix3 g e j')) :
    Gen.out0_5 (F := Ideal) x0 x1 x2 x3 (ix3 (0 : Fin 1) p j) = Spec.out1 X A W3 (ix3 g n j) := by
  rw [Body.out5_apply]
  unfold Spec.out1 Spec.proj2 Spec.feat
  simp only [h0, h1, h3]

/-! ## The printed index maps over the grid -/

/-- Decided over the 36 points: window 0 (features) moves with the outputs on the slice and row-block axes; window 1
    (the projection) stays; windows 2 and 3 (the weight slabs) move on the slice axis only; the two outputs move
    together, over 9 slices and 4 row blocks. -/
theorem idx_facts : ∀ t : Fin cfg0.N,
    win0_0.index t (0 : Fin 3) = win0_4.index t (0 : Fin 3) ∧ win0_0.index t (1 : Fin 3) = win0_4.index t (1 : Fin 3)
    ∧ win0_0.index t (2 : Fin 3) = 0
    ∧ win0_1.index t (0 : Fin 2) = 0 ∧ win0_1.index t (1 : Fin 2) = 0
    ∧ win0_2.index t (0 : Fin 3) = win0_4.index t (0 : Fin 3) ∧ win0_2.index t (1 : Fin 3) = 0 ∧ win0_2.index t (2 : Fin 3) = 0
    ∧ win0_3.index t (0 : Fin 3) = win0_4.index t (0 : Fin 3) ∧ win0_3.index t (1 : Fin 3) = 0 ∧ win0_3.index t (2 : Fin 3) = 0
    ∧ win0_5.index t (0 : Fin 3) = win0_4.index t (0 : Fin 3) ∧ win0_5.index t (1 : Fin 3) = win0_4.index t (1 : Fin 3)
    ∧ win0_5.index t (2 : Fin 3) = 0
    ∧ win0_4.index t (0 : Fin 3) ≤ 8 ∧ win0_4.index t (1 : Fin 3) ≤ 3 ∧ win0_4.index t (2 : Fin 3) = 0 :=
  (by decide +kernel : ∀ t : Fin grid0.N, _)

/-- Every (slice, row block) pair is some point's. -/
theorem idx_onto : ∀ (q0 : Fin 9) (q1 : Fin 4), ∃ t : Fin cfg0.N,
    win0_4.index t = ![q0.val, q1.val, 0] ∧ win0_5.index t = ![q0.val, q1.val, 0] :=
  (by decide +kernel : ∀ (q0 : Fin 9) (q1 : Fin 4), ∃ t : Fin grid0.N,
    win0_4.index t = ![q0.val, q1.val, 0] ∧ win0_5.index t = ![q0.val, q1.val, 0])

/-! ## The input blocks as rows of the arrays -/

/-- Point t's block of the features: row p of the block is row (row block)·1024 + p of slice g. -/
theorem iblk0_apply (c : Dev nD) (t : Fin cfg0.N) (p : Fin 1024) (d : Fin 2048) (g : Fin 9) (n : Fin 4096)
    (hg : g.val = win0_4.index t (0 : Fin 3)) (hn : n.val = win0_4.index t (1 : Fin 3) * 1024 + p.val) :
    iblk m c 0 t (ix3 (0 : Fin 1) p d) = (V m c main_arg0 : S9x4096x2048.Idx → EReal) (ix3 g n d) := by
  obtain ⟨e00, e01, e02, -⟩ := idx_facts t
  show V m c main_arg0 (((cfg0.win 0).blk t).view.emb (ix3 (0 : Fin 1) p d)) = _
  refine congrArg (V m c main_arg0) (funext fun a => Fin.ext ?_)
  match a with
  | ⟨0, _⟩ => show win0_0.index t (0 : Fin 3) * 1 + 1 * 0 = g.val; omega
  | ⟨1, _⟩ => show win0_0.index t (1 : Fin 3) * 1024 + 1 * p.val = n.val; omega
  | ⟨2, _⟩ => show win0_0.index t (2 : Fin 3) * 2048 + 1 * d.val = d.val; omega

/-- Point t's block of the projection is the projection. -/
theorem iblk1_apply (c : Dev nD) (t : Fin cfg0.N) (d : Fin 2048) (e : Fin 512) :
    iblk m c 1 t (ix2 d e) = (V m c main_arg5 : S2048x512.Idx → EReal) (ix2 d e) := by
  obtain ⟨-, -, -, e10, e11, -⟩ := idx_facts t
  show V m c main_arg5 (((cfg0.win 1).blk t).view.emb (ix2 d e)) = _
  refine congrArg (V m c main_arg5) (funext fun a => Fin.ext ?_)
  match a with
  | ⟨0, _⟩ => show win0_1.index t (0 : Fin 2) * 2048 + 1 * d.val = d.val; omega
  | ⟨1, _⟩ => show win0_1.index t (1 : Fin 2) * 512 + 1 * e.val = e.val; omega

/-- Point t's block of the first padded weight slab is slice g of it. -/
theorem iblk2_apply (c : Dev nD) (t : Fin cfg0.N) (d : Fin 2048) (j : Fin 128) (g : Fin 9)
    (hg : g.val = win0_4.index t (0 : Fin 3)) :
    iblk m c 2 t (ix3 (0 : Fin 1) d j) = (V m c main_v1 : S9x2048x128.Idx → EReal) (ix3 g d j) := by
  obtain ⟨-, -, -, -, -, e20, e21, e22, -⟩ := idx_facts t
  show V m c main_v1 (((cfg0.win 2).blk t).view.emb (ix3 (0 : Fin 1) d j)) = _
  refine congrArg (V m c main_v1) (funext fun a => Fin.ext ?_)
  match a with
  | ⟨0, _⟩ => show win0_2.index t (0 : Fin 3) * 1 + 1 * 0 = g.val; omega
  | ⟨1, _⟩ => show win0_2.index t (1 : Fin 3) * 2048 + 1 * d.val = d.val; omega
  | ⟨2, _⟩ => show win0_2.index t (2 : Fin 3) * 128 + 1 * j.val = j.val; omega

/-- Point t's block of the second padded weight slab is slice g of it. -/
theorem iblk3_apply (c : Dev nD) (t : Fin cfg0.N) (e : Fin 512) (j : Fin 128) (g : Fin 9)
    (hg : g.val = win0_4.index t (0 : Fin 3)) :
    iblk m c 3 t (ix3 (0 : Fin 1) e j) = (V m c main_v3 : S9x512x128.Idx → EReal) (ix3 g e j) := by
  obtain ⟨-, -, -, -, -, -, -, -, e30, e31, e32, -⟩ := idx_facts t
  show V m c main_v3 (((cfg0.win 3).blk t).view.emb (ix3 (0 : Fin 1) e j)) = _
  refine congrArg (V m c main_v3) (funext fun a => Fin.ext ?_)
  match a with
  | ⟨0, _⟩ => show win0_3.index t (0 : Fin 3) * 1 + 1 * 0 = g.val; omega
  | ⟨1, _⟩ => show win0_3.index t (1 : Fin 3) * 512 + 1 * e.val = e.val; omega
  | ⟨2, _⟩ => show win0_3.index t (2 : Fin 3) * 128 + 1 * j.val = j.val; omega

/-! ## What a point writes back -/

/-- Point t writes to the first slab the block of `Spec.out0` of the features and the first padded weight slab. -/
theorem flushed4_eq (c : Dev nD) (t : Fin cfg0.N) :
    (dats m 0 c).flushed 4 t
      = ((cfg0.win 4).blk t).view.read (Elt Ideal) (Spec.out0 (V m c main_arg0) (V m c main_v1)) := by
  show (cfg0.win 4).cut (grid0.coords t) ((dats m 0 c).after 4 t) = _
  rw [after0_4]
  obtain ⟨-, -, -, -, -, -, -, -, -, -, -, -, -, -, b0, b1, e42⟩ := idx_facts t
  funext y
  have hy0 : (y 0).val = 0 := by have h : (y 0).val < 1 := (y 0).isLt; omega
  have hy1 : (y 1).val < 1024 := (y 1).isLt
  have hy2 : (y 2).val < 128 := (y 2).isLt
  have hy : y = ix3 (0 : Fin 1) (⟨(y 1).val, hy1⟩ : Fin 1024) (⟨(y 2).val, hy2⟩ : Fin 128) :=
    funext fun a => Fin.ext (by match a with | ⟨0, _⟩ => exact hy0 | ⟨1, _⟩ => rfl | ⟨2, _⟩ => rfl)
  have hg : win0_4.index t (0 : Fin 3) < 9 := by omega
  have hn : win0_4.index t (1 : Fin 3) * 1024 + (y 1).val < 4096 := by omega
  show out0_4 (iblk m c 0 t) (iblk m c 1 t) (iblk m c 2 t) (iblk m c 3 t) y
    = Spec.out0 (V m c main_arg0) (V m c main_v1) (((cfg0.win 4).blk t).view.emb y)
  have hemb : ((cfg0.win 4).blk t).view.emb y
      = ix3 (⟨win0_4.index t (0 : Fin 3), hg⟩ : Fin 9) (⟨win0_4.index t (1 : Fin 3) * 1024 + (y 1).val, hn⟩ : Fin 4096)
          (⟨(y 2).val, hy2⟩ : Fin 128) := by
    funext a; apply Fin.ext
    match a with
    | ⟨0, _⟩ => show win0_4.index t (0 : Fin 3) * 1 + 1 * (y 0).val = win0_4.index t (0 : Fin 3); omega
    | ⟨1, _⟩ => show win0_4.index t (1 : Fin 3) * 1024 + 1 * (y 1).val = win0_4.index t (1 : Fin 3) * 1024 + (y 1).val; omega
    | ⟨2, _⟩ => show win0_4.index t (2 : Fin 3) * 128 + 1 * (y 2).val = (y 2).val; omega
  rw [hemb]
  refine (congrArg (out0_4 (iblk m c 0 t) (iblk m c 1 t) (iblk m c 2 t) (iblk m c 3 t)) hy).trans ?_
  exact blk4_eq (V m c main_arg0) (V m c main_v1) (iblk m c 0 t) (iblk m c 1 t) (iblk m c 2 t) (iblk m c 3 t) _ _ _ _
    (fun d => iblk0_apply m c t _ d _ _ rfl rfl) (fun d j' => iblk2_apply m c t d j' _ rfl)

/-- Point t writes to the second slab the block of `Spec.out1` of the features, the projection and the second padded
    weight slab. -/
theorem flushed5_eq (c : Dev nD) (t : Fin cfg0.N) :
    (dats m 0 c).flushed 5 t
      = ((cfg0.win 5).blk t).view.read (Elt Ideal) (Spec.out1 (V m c main_arg0) (V m c main_arg5) (V m c main_v3)) := by
  show (cfg0.win 5).cut (grid0.coords t) ((dats m 0 c).after 5 t) = _
  rw [after0_5]
  obtain ⟨-, -, -, -, -, -, -, -, -, -, -, e50, e51, e52, b0, b1, -⟩ := idx_facts t
  funext y
  have hy0 : (y 0).val = 0 := by have h : (y 0).val < 1 := (y 0).isLt; omega
  have hy1 : (y 1).val < 1024 := (y 1).isLt
  have hy2 : (y 2).val < 128 := (y 2).isLt
  have hy : y = ix3 (0 : Fin 1) (⟨(y 1).val, hy1⟩ : Fin 1024) (⟨(y 2).val, hy2⟩ : Fin 128) :=
    funext fun a => Fin.ext (by match a with | ⟨0, _⟩ => exact hy0 | ⟨1, _⟩ => rfl | ⟨2, _⟩ => rfl)
  have hg : win0_4.index t (0 : Fin 3) < 9 := by omega
  have hn : win0_4.index t (1 : Fin 3) * 1024 + (y 1).val < 4096 := by omega
  show out0_5 (iblk m c 0 t) (iblk m c 1 t) (iblk m c 2 t) (iblk m c 3 t) y
    = Spec.out1 (V m c main_arg0) (V m c main_arg5) (V m c main_v3) (((cfg0.win 5).blk t).view.emb y)
  have hemb : ((cfg0.win 5).blk t).view.emb y
      = ix3 (⟨win0_4.index t (0 : Fin 3), hg⟩ : Fin 9) (⟨win0_4.index t (1 : Fin 3) * 1024 + (y 1).val, hn⟩ : Fin 4096)
          (⟨(y 2).val, hy2⟩ : Fin 128) := by
    funext a; apply Fin.ext
    match a with
    | ⟨0, _⟩ => show win0_5.index t (0 : Fin 3) * 1 + 1 * (y 0).val = win0_4.index t (0 : Fin 3); omega
    | ⟨1, _⟩ => show win0_5.index t (1 : Fin 3) * 1024 + 1 * (y 1).val = win0_4.index t (1 : Fin 3) * 1024 + (y 1).val; omega
    | ⟨2, _⟩ => show win0_5.index t (2 : Fin 3) * 128 + 1 * (y 2).val = (y 2).val; omega
  rw [hemb]
  refine (congrArg (out0_5 (iblk m c 0 t) (iblk m c 1 t) (iblk m c 2 t) (iblk m c 3 t)) hy).trans ?_
  exact blk5_eq (V m c main_arg0) (V m c main_arg5) (V m c main_v3) (iblk m c 0 t) (iblk m c 1 t) (iblk m c 2 t) (iblk m c 3 t) _ _ _ _
    (fun d => iblk0_apply m c t _ d _ _ rfl rfl) (fun d e => iblk1_apply m c t d e) (fun e j' => iblk3_apply m c t e j' _ rfl)

/-! ## The blocks tile the slabs, so each slab ends as its function -/

/-- An index of slab one is in point t's block iff each coordinate is in the block's range on its axis. -/
theorem mem_blk4 (t : Fin cfg0.N) (i : S9x4096x128.Idx) :
    i ∈ ((cfg0.win 4).blk t).view.set ↔ ∀ a : Fin 3, win0_4.index t a * S1x1024x128.size a ≤ (i a).val
      ∧ (i a).val < win0_4.index t a * S1x1024x128.size a + S1x1024x128.size a := by
  show i ∈ ((View.whole main_v4_0).slice (win0_4.rect t)).set ↔ _
  rw [View.set_slice_whole, Rect.mem_set_unit]
  exact Iff.rfl

/-- Every index of the slab is in the block of the point at its slice and its row's block of 1024. -/
theorem cover4 (i : S9x4096x128.Idx) :
    ∃ t : Fin cfg0.N, (cfg0.win 4).flush t = true ∧ i ∈ ((cfg0.win 4).blk t).view.set := by
  have hi0 : (i 0).val < 9 := (i 0).isLt
  have hi1 : (i 1).val < 4096 := (i 1).isLt
  have hi2 : (i 2).val < 128 := (i 2).isLt
  obtain ⟨t, ht4, ht5⟩ := idx_onto ⟨(i 0).val, hi0⟩ ⟨(i 1).val / 1024, by omega⟩
  have q0 : win0_4.index t (0 : Fin 3) = (i 0).val := congrFun ht4 0
  have q1 : win0_4.index t (1 : Fin 3) = (i 1).val / 1024 := congrFun ht4 1
  have q2 : win0_4.index t (2 : Fin 3) = 0 := congrFun ht4 2
  refine ⟨t, flush0_4 t, ?_⟩
  rw [mem_blk4]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 1024 ≤ (i 1).val ∧ (i 1).val < win0_4.index t (1 : Fin 3) * 1024 + 1024; omega
  | ⟨2, _⟩ => show win0_4.index t (2 : Fin 3) * 128 ≤ (i 2).val ∧ (i 2).val < win0_4.index t (2 : Fin 3) * 128 + 128; omega

/-- An index of slab two is in point t's block iff each coordinate is in the block's range on its axis. -/
theorem mem_blk5 (t : Fin cfg0.N) (i : S9x4096x128.Idx) :
    i ∈ ((cfg0.win 5).blk t).view.set ↔ ∀ a : Fin 3, win0_5.index t a * S1x1024x128.size a ≤ (i a).val
      ∧ (i a).val < win0_5.index t a * S1x1024x128.size a + S1x1024x128.size a := by
  show i ∈ ((View.whole main_v4_1).slice (win0_5.rect t)).set ↔ _
  rw [View.set_slice_whole, Rect.mem_set_unit]
  exact Iff.rfl

/-- Every index of the slab is in the block of the point at its slice and its row's block of 1024. -/
theorem cover5 (i : S9x4096x128.Idx) :
    ∃ t : Fin cfg0.N, (cfg0.win 5).flush t = true ∧ i ∈ ((cfg0.win 5).blk t).view.set := by
  have hi0 : (i 0).val < 9 := (i 0).isLt
  have hi1 : (i 1).val < 4096 := (i 1).isLt
  have hi2 : (i 2).val < 128 := (i 2).isLt
  obtain ⟨t, ht4, ht5⟩ := idx_onto ⟨(i 0).val, hi0⟩ ⟨(i 1).val / 1024, by omega⟩
  have q0 : win0_5.index t (0 : Fin 3) = (i 0).val := congrFun ht5 0
  have q1 : win0_5.index t (1 : Fin 3) = (i 1).val / 1024 := congrFun ht5 1
  have q2 : win0_5.index t (2 : Fin 3) = 0 := congrFun ht5 2
  refine ⟨t, flush0_5 t, ?_⟩
  rw [mem_blk5]
  intro a
  match a with
  | ⟨0, _⟩ => show win0_5.index t (0 : Fin 3) * 1 ≤ (i 0).val ∧ (i 0).val < win0_5.index t (0 : Fin 3) * 1 + 1; omega
  | ⟨1, _⟩ => show win0_5.index t (1 : Fin 3) * 1024 ≤ (i 1).val ∧ (i 1).val < win0_5.index t (1 : Fin 3) * 1024 + 1024; omega
  | ⟨2, _⟩ => show win0_5.index t (2 : Fin 3) * 128 ≤ (i 2).val ∧ (i 2).val < win0_5.index t (2 : Fin 3) * 128 + 128; omega

/-- After the run the first output slab is `Spec.out0` of the features and the first padded weight slab. -/
theorem final4 (c : Dev nD) :
    (dats m 0 c).arrAt 4 cfg0.N = Spec.out0 (V m c main_arg0) (V m c main_v1) :=
  (dats m 0 c).arrAt_eq_of_cover 4 _ (fun t _ => flushed4_eq m c t) cover4

/-- After the run the second output slab is `Spec.out1` of the features, the projection and the second padded weight slab. -/
theorem final5 (c : Dev nD) :
    (dats m 0 c).arrAt 5 cfg0.N = Spec.out1 (V m c main_arg0) (V m c main_arg5) (V m c main_v3) :=
  (dats m 0 c).arrAt_eq_of_cover 5 _ (fun t _ => flushed5_eq m c t) cover5

end Cert.KernelIdeal.Blocks

end
-- ==== Proof.Tail.lean ====
/-
  The host operations after the region, and the kernel program's run read as values.

  After the region the program cuts four pieces out of the two output slabs — columns 0–3 and 4–24 of the first,
  columns 0–3 and column 4 of the second — and applies, to the two pieces of the second slab, a softmax across the nine
  slices (subtract the maximum over the slices, exponentiate, divide by the sum over the slices).  The four results are:
  the sum over the slices of (offsets + the first piece) · softmax (third piece); offsets + the first piece; the second
  piece; the softmax of the fourth piece.  The softmax across slices and the combination are named here once, as
  functions of the pieces, and never opened.
-/
import proofs.«123543_j10943576670543_2_alg».proof.Proof.Gen.KernelIdeal.Frame
import proofs.«123543_j10943576670543_2_alg».proof.Proof.Spec
import proofs.«123543_j10943576670543_2_alg».proof.Proof.Blocks
import Idealize.ShloMosaic.Lib.Pipeline.Value
import Idealize.ShloMosaic.Lib.StableHlo.Run

noncomputable section

namespace Cert.KernelIdeal.Tail

open Cert.KernelIdeal Cert.KernelIdeal.Gen Idealize.ShloMosaic Idealize.ShloMosaic.TcCoe Idealize.SL.Sem
open Idealize.ShloMosaic.StableHlo
open Idealize.ShloMosaic.Pipeline (Dat)

variable {F : FTy → Type} [FloatOps F]

/-- The contents of a 9 × 4096 × 4 float buffer. -/
abbrev T4 : Type := (⟨S9x4096x4, .f32⟩ : BufTy).Contents (Elt F)
/-- The contents of a 9 × 4096 × 1 float buffer. -/
abbrev T1 : Type := (⟨S9x4096x1, .f32⟩ : BufTy).Contents (Elt F)
/-- The contents of a 4096 × 4 float buffer. -/
abbrev R4 : Type := (⟨S4096x4, .f32⟩ : BufTy).Contents (Elt F)
/-- The contents of a 4096 × 1 float buffer. -/
abbrev R1 : Type := (⟨S4096x1, .f32⟩ : BufTy).Contents (Elt F)

/-- The softmax across the nine slices of a 9 × 4096 × 4 array. -/
def soft4 (x : T4 (F := F)) : T4 (F := F) :=
  let e : T4 (F := F) := Host.exp ((subf : T4 (F := F) → T4 (F := F) → T4 (F := F)) x (broadcastInDim S9x4096x4 ![0, 1, 2] bcast_S1x4096x4_S9x4096x4_0_1_2
    (broadcastInDim S1x4096x4 ![1, 2] bcast_S4096x4_S1x4096x4_1_2
      ((maximumf : R4 (F := F) → R4 (F := F) → R4 (F := F)) (broadcastInDim S4096x4 ![] bcast_S_S4096x4 (constant S_ .f32 0xFF800000#32))
        (Host.reduce FloatOps.maximumf x (constant S_ .f32 0xFF800000#32) reducesTo_S9x4096x4_S4096x4_d0 h_S_)))))
  Host.divf e (broadcastInDim S9x4096x4 ![0, 1, 2] bcast_S1x4096x4_S9x4096x4_0_1_2
    (broadcastInDim S1x4096x4 ![1, 2] bcast_S4096x4_S1x4096x4_1_2
      (Host.reduceAdd e (constant S_ .f32 0x00000000#32) reducesTo_S9x4096x4_S4096x4_d0 h_S_)))

/-- The softmax across the nine slices of a 9 × 4096 × 1 array. -/
def soft1 (x : T1 (F := F)) : T1 (F := F) :=
  let e : T1 (F := F) := Host.exp ((subf : T1 (F := F) → T1 (F := F) → T1 (F := F)) x (broadcastInDim S9x4096x1 ![0, 1, 2] bcast_S1x4096x1_S9x4096x1_0_1_2
    (broadcastInDim S1x4096x1 ![1, 2] bcast_S4096x1_S1x4096x1_1_2
      ((maximumf : R1 (F := F) → R1 (F := F) → R1 (F := F)) (broadcastInDim S4096x1 ![] bcast_S_S4096x1 (constant S_ .f32 0xFF800000#32))
        (Host.reduce FloatOps.maximumf x (constant S_ .f32 0xFF800000#32) reducesTo_S9x4096x1_S4096x1_d0 h_S_)))))
  Host.divf e (broadcastInDim S9x4096x1 ![0, 1, 2] bcast_S1x4096x1_S9x4096x1_0_1_2
    (broadcastInDim S1x4096x1 ![1, 2] bcast_S4096x1_S1x4096x1_1_2
      (Host.reduceAdd e (constant S_ .f32 0x00000000#32) reducesTo_S9x4096x1_S4096x1_d0 h_S_)))

/-- The predicted offsets: columns 1–4 of the deltas plus the offset piece. -/
def pred (x3 : (⟨S9x4096x5, .f32⟩ : BufTy).Contents (Elt F)) (off : T4 (F := F)) : T4 (F := F) :=
  (addf : T4 (F := F) → T4 (F := F) → T4 (F := F)) (extractStridedSlice S9x4096x4 ![0, 0, 1] x3 slices_S9x4096x5_S9x4096x4_0_0_1) off

/-- The combined output: the sum over the slices of the predicted offsets weighted by the softmax of the alpha piece. -/
def comb (x3 : (⟨S9x4096x5, .f32⟩ : BufTy).Contents (Elt F)) (off alpha : T4 (F := F)) : R4 (F := F) :=
  Host.reduceAdd ((mulf : T4 (F := F) → T4 (F := F) → T4 (F := F)) (pred x3 off) (soft4 alpha)) (constant S_ .f32 0x00000000#32)
    reducesTo_S9x4096x4_S4096x4_d0 h_S_

variable (m : (ℓ : Loc nD τ sig) → Buf (Elt Ideal) ℓ) (ρ : Dev nD → PrngReg)

/-- What the host operations after the region find in the first output slab: the array the region left. -/
theorem tail_slab0 (c : Dev nD) :
    Pipeline.withArrays cfg0.spec c (V0 m c) (fun w => (dats m 0 c).arrAt w cfg0.N) (Proc.devRef .tc main_v4_0)
      = Spec.out0 (V m c main_arg0) (V m c main_v1) :=
  (Pipeline.withArrays_arr spec0 launch0.win.arr_inj c _ _ 4).trans (Blocks.final4 m c)

/-- Likewise the second output slab. -/
theorem tail_slab1 (c : Dev nD) :
    Pipeline.withArrays cfg0.spec c (V0 m c) (fun w => (dats m 0 c).arrAt w cfg0.N) (Proc.devRef .tc main_v4_1)
      = Spec.out1 (V m c main_arg0) (V m c main_arg5) (V m c main_v3) :=
  (Pipeline.withArrays_arr spec0 launch0.win.arr_inj c _ _ 5).trans (Blocks.final5 m c)

/-- And the deltas, which no window stages: as launched. -/
theorem tail_arg3 (c : Dev nD) :
    Pipeline.withArrays cfg0.spec c (V0 m c) (fun w => (dats m 0 c).arrAt w cfg0.N) (Proc.devRef .tc main_arg3)
      = m ((c : Thread nD τ).loc main_arg3) :=
  (Pipeline.withArrays_of_ne _ c (V0 m c) _ main_arg3 (by exact (by decide : ∀ w, Pipeline.arrRef spec0 w ≠ main_arg3))).trans
    (V_main_arg3 m c)

/-! ## The four results after the tail -/

/-- The predicted offsets after the run. -/
theorem tail_v21 (c : Dev nD) :
    Pipeline.afterTail₀ cfgs (dats m) 0 (V0 m) [hostOps1] c main_v21
      = pred (F := Ideal) (m ((c : Thread nD τ).loc main_arg3))
          (extractStridedSlice S9x4096x4 ![0, 0, 0] (Spec.out0 (V m c main_arg0) (V m c main_v1)) slices_S9x4096x128_S9x4096x4_0_0_0) := by
  unfold Pipeline.afterTail₀
  show StableHlo.after hostOps1 _ (Proc.devRef .tc main_v21) = _
  after_results
  rw [tail_slab0, tail_arg3]
  rfl

/-- The class piece after the run. -/
theorem tail_v6 (c : Dev nD) :
    Pipeline.afterTail₀ cfgs (dats m) 0 (V0 m) [hostOps1] c main_v6
      = extractStridedSlice S9x4096x21 ![0, 0, 4] (Spec.out0 (V m c main_arg0) (V m c main_v1)) slices_S9x4096x128_S9x4096x21_0_0_4 := by
  unfold Pipeline.afterTail₀
  show StableHlo.after hostOps1 _ (Proc.devRef .tc main_v6) = _
  after_results
  rw [tail_slab0]

set_option maxHeartbeats 2000000 in
/-- The combined output after the run. -/
theorem tail_v23 (c : Dev nD) :
    Pipeline.afterTail₀ cfgs (dats m) 0 (V0 m) [hostOps1] c main_v23
      = comb (F := Ideal) (m ((c : Thread nD τ).loc main_arg3))
          (extractStridedSlice S9x4096x4 ![0, 0, 0] (Spec.out0 (V m c main_arg0) (V m c main_v1)) slices_S9x4096x128_S9x4096x4_0_0_0)
          (extractStridedSlice S9x4096x4 ![0, 0, 0] (Spec.out1 (V m c main_arg0) (V m c main_arg5) (V m c main_v3)) slices_S9x4096x128_S9x4096x4_0_0_0) := by
  unfold Pipeline.afterTail₀
  show StableHlo.after hostOps1 _ (Proc.devRef .tc main_v23) = _
  after_results_simp
  rw [tail_slab0, tail_slab1, tail_arg3]
  rfl

set_option maxHeartbeats 2000000 in
/-- The softmax of the second slab's column 4 after the run. -/
theorem tail_v34 (c : Dev nD) :
    Pipeline.afterTail₀ cfgs (dats m) 0 (V0 m) [hostOps1] c main_v34
      = soft1 (F := Ideal)
          (extractStridedSlice S9x4096x1 ![0, 0, 4] (Spec.out1 (V m c main_arg0) (V m c main_arg5) (V m c main_v3)) slices_S9x4096x128_S9x4096x1_0_0_4) := by
  unfold Pipeline.afterTail₀
  show StableHlo.after hostOps1 _ (Proc.devRef .tc main_v34) = _
  after_results_simp
  rw [tail_slab1]
  rfl

end Cert.KernelIdeal.Tail

end
-- ==== Proof.Results.lean ====
/-
  The four results, as functions of the argument arrays.

  With X the features, A the projection, and the four unpadded weight arrays: the offset piece is X against the
  box-regression weights, the alpha piece the rectified projection against the alpha weights, the class piece the row
  softmax of X against the class weights, the alpha-class piece the rectified projection against the alpha-class
  weights.  The results are the combination over the slices, the predicted offsets, the class piece, and the softmax
  across the slices of the alpha-class piece.
-/
import proofs.«123543_j10943576670543_2_alg».proof.Proof.Tail
import proofs.«123543_j10943576670543_2_alg».proof.Proof.Spec

noncomputable section

namespace Cert.KernelIdeal.Results

open Cert.KernelIdeal Idealize.ShloMosaic Cert.LibRowSoftmax

/-- The offset piece: the features against the box-regression weights. -/
def offs (x0 : (⟨S9x4096x2048, .f32⟩ : BufTy).Contents (Elt Ideal)) (x7 : (⟨S9x2048x4, .f32⟩ : BufTy).Contents (Elt Ideal)) :
    (⟨S9x4096x4, .f32⟩ : BufTy).Contents (Elt Ideal) := fun i => Spec.proj1 x0 x7 (i 0) (i 1) (i 2)

/-- The alpha piece: the rectified projection against the alpha weights. -/
def alph (x0 : (⟨S9x4096x2048, .f32⟩ : BufTy).Contents (Elt Ideal)) (x5 : (⟨S2048x512, .f32⟩ : BufTy).Contents (Elt Ideal))
    (x6 : (⟨S9x512x4, .f32⟩ : BufTy).Contents (Elt Ideal)) : (⟨S9x4096x4, .f32⟩ : BufTy).Contents (Elt Ideal) :=
  fun i => Spec.proj2 x0 x5 x6 (i 0) (i 1) (i 2)

/-- The alpha-class piece: the rectified projection against the alpha-class weights. -/
def alphc (x0 : (⟨S9x4096x2048, .f32⟩ : BufTy).Contents (Elt Ideal)) (x5 : (⟨S2048x512, .f32⟩ : BufTy).Contents (Elt Ideal))
    (x8 : (⟨S9x512x1, .f32⟩ : BufTy).Contents (Elt Ideal)) : (⟨S9x4096x1, .f32⟩ : BufTy).Contents (Elt Ideal) :=
  fun i => Spec.proj2 x0 x5 x8 (i 0) (i 1) (i 2)

/-- The class piece: the row softmax of the features against the class weights. -/
def cls (x0 : (⟨S9x4096x2048, .f32⟩ : BufTy).Contents (Elt Ideal)) (x9 : (⟨S9x2048x21, .f32⟩ : BufTy).Contents (Elt Ideal)) :
    (⟨S9x4096x21, .f32⟩ : BufTy).Contents (Elt Ideal) :=
  fun i => rowSoft (fun c : Fin 21 => Spec.proj1 x0 x9 (i 0) (i 1) c) (i 2)

end Cert.KernelIdeal.Results

end
-- ==== Proof.Weights.lean ====
/-
  The two padded weight slabs the host builds before the region, read where the kernel's results look at them.

  Each slab is a concatenation of two weight arrays along the last axis, padded with a constant on the high side of
  that axis up to 128 lanes.  A lane below the concatenation's width lies inside the padded operand, so the slab
  there is the concatenation there; a lane below the first piece's width reads the first piece at the same
  coordinates, and a lane at or past it reads the second piece with the first piece's width taken off.
-/
import proofs.«123543_j10943576670543_2_alg».proof.Proof.Gen.KernelIdeal.Frame
import Idealize.ShloMosaic.Lib.KernelVsHost
import Idealize.ShloMosaic.Lib.Pipeline.Value
import Idealize.ShloMosaic.Lib.ValueIdx

noncomputable section

namespace Cert.KernelIdeal.Weights

open Cert.KernelIdeal Cert.KernelIdeal.Gen Idealize.ShloMosaic Idealize.ShloMosaic.ValueIdx Idealize.ShloMosaic.TcCoe

/-- The first slab at a lane f < 4 is the first weight array at the same coordinates. -/
theorem wbc_left (x7 : (⟨S9x2048x4, .f32⟩ : BufTy).Contents (Elt Ideal)) (x9 : (⟨S9x2048x21, .f32⟩ : BufTy).Contents (Elt Ideal))
    (v : (⟨S_, .f32⟩ : BufTy).Contents (Elt Ideal)) (g : Fin 9) (d : Fin 2048) (f : Fin 4) :
    pad S9x2048x128 ![0, 0, 0] ![0, 0, 103] ![0, 0, 0]
        (concatenate S9x2048x25 2 [⟨S9x2048x4, x7⟩, ⟨S9x2048x21, x9⟩] concatenates_S9x2048x4_S9x2048x21_S9x2048x25_d2) v
        pads_S9x2048x25_S9x2048x128_000_000_01030 h_S_
      (ix3 g d (⟨f.val, by omega⟩ : Fin 128)) = x7 (ix3 g d f) := by
  refine (pad_apply_of_inside _ _ _ _ v pads_S9x2048x25_S9x2048x128_000_000_01030 h_S_
    (ix3 g d (⟨f.val, by omega⟩ : Fin 128)) (ix3 g d (⟨f.val, by omega⟩ : Fin 25)) fun a => ?_).trans ?_
  · match a with
    | ⟨0, _⟩ => show g.val = 0 + g.val * (0 + 1); omega
    | ⟨1, _⟩ => show d.val = 0 + d.val * (0 + 1); omega
    | ⟨2, _⟩ => show f.val = 0 + f.val * (0 + 1); omega
  · refine concatenate_pair_apply_left 2 x7 x9 concatenates_S9x2048x4_S9x2048x21_S9x2048x25_d2
      (ix3 g d (⟨f.val, by omega⟩ : Fin 25)) rfl (ix3 g d f) fun b => ?_
    match b with
    | ⟨0, _⟩ => rfl
    | ⟨1, _⟩ => rfl
    | ⟨2, _⟩ => rfl

/-- The first slab at lane 4 + c, c < 21, is the second weight array at lane c. -/
theorem wbc_right (x7 : (⟨S9x2048x4, .f32⟩ : BufTy).Contents (Elt Ideal)) (x9 : (⟨S9x2048x21, .f32⟩ : BufTy).Contents (Elt Ideal))
    (v : (⟨S_, .f32⟩ : BufTy).Contents (Elt Ideal)) (g : Fin 9) (d : Fin 2048) (c : Fin 21) :
    pad S9x2048x128 ![0, 0, 0] ![0, 0, 103] ![0, 0, 0]
        (concatenate S9x2048x25 2 [⟨S9x2048x4, x7⟩, ⟨S9x2048x21, x9⟩] concatenates_S9x2048x4_S9x2048x21_S9x2048x25_d2) v
        pads_S9x2048x25_S9x2048x128_000_000_01030 h_S_
      (ix3 g d (⟨4 + c.val, by omega⟩ : Fin 128)) = x9 (ix3 g d c) := by
  refine (pad_apply_of_inside _ _ _ _ v pads_S9x2048x25_S9x2048x128_000_000_01030 h_S_
    (ix3 g d (⟨4 + c.val, by omega⟩ : Fin 128)) (ix3 g d (⟨4 + c.val, by omega⟩ : Fin 25)) fun a => ?_).trans ?_
  · match a with
    | ⟨0, _⟩ => show g.val = 0 + g.val * (0 + 1); omega
    | ⟨1, _⟩ => show d.val = 0 + d.val * (0 + 1); omega
    | ⟨2, _⟩ => show 4 + c.val = 0 + (4 + c.val) * (0 + 1); omega
  · refine concatenate_pair_apply_right 2 x7 x9 concatenates_S9x2048x4_S9x2048x21_S9x2048x25_d2
      (ix3 g d (⟨4 + c.val, by omega⟩ : Fin 25)) rfl rfl (ix3 g d c) (fun b hb => ?_) ?_
    · match b with
      | ⟨0, _⟩ => rfl
      | ⟨1, _⟩ => rfl
      | ⟨2, _⟩ => exact absurd rfl hb
    · show c.val + 4 = 4 + c.val; omega

/-- The second slab at a lane f < 4 is the first weight array at the same coordinates. -/
theorem walpha_left (x6 : (⟨S9x512x4, .f32⟩ : BufTy).Contents (Elt Ideal)) (x8 : (⟨S9x512x1, .f32⟩ : BufTy).Contents (Elt Ideal))
    (v : (⟨S_, .f32⟩ : BufTy).Contents (Elt Ideal)) (g : Fin 9) (e : Fin 512) (f : Fin 4) :
    pad S9x512x128 ![0, 0, 0] ![0, 0, 123] ![0, 0, 0]
        (concatenate S9x512x5 2 [⟨S9x512x4, x6⟩, ⟨S9x512x1, x8⟩] concatenates_S9x512x4_S9x512x1_S9x512x5_d2) v
        pads_S9x512x5_S9x512x128_000_000_01230 h_S_
      (ix3 g e (⟨f.val, by omega⟩ : Fin 128)) = x6 (ix3 g e f) := by
  refine (pad_apply_of_inside _ _ _ _ v pads_S9x512x5_S9x512x128_000_000_01230 h_S_
    (ix3 g e (⟨f.val, by omega⟩ : Fin 128)) (ix3 g e (⟨f.val, by omega⟩ : Fin 5)) fun a => ?_).trans ?_
  · match a with
    | ⟨0, _⟩ => show g.val = 0 + g.val * (0 + 1); omega
    | ⟨1, _⟩ => show e.val = 0 + e.val * (0 + 1); omega
    | ⟨2, _⟩ => show f.val = 0 + f.val * (0 + 1); omega
  · refine concatenate_pair_apply_left 2 x6 x8 concatenates_S9x512x4_S9x512x1_S9x512x5_d2
      (ix3 g e (⟨f.val, by omega⟩ : Fin 5)) rfl (ix3 g e f) fun b => ?_
    match b with
    | ⟨0, _⟩ => rfl
    | ⟨1, _⟩ => rfl
    | ⟨2, _⟩ => rfl

/-- The second slab at lane 4 is the second weight array's one lane. -/
theorem walpha_right (x6 : (⟨S9x512x4, .f32⟩ : BufTy).Contents (Elt Ideal)) (x8 : (⟨S9x512x1, .f32⟩ : BufTy).Contents (Elt Ideal))
    (v : (⟨S_, .f32⟩ : BufTy).Contents (Elt Ideal)) (g : Fin 9) (e : Fin 512) :
    pad S9x512x128 ![0, 0, 0] ![0, 0, 123] ![0, 0, 0]
        (concatenate S9x512x5 2 [⟨S9x512x4, x6⟩, ⟨S9x512x1, x8⟩] concatenates_S9x512x4_S9x512x1_S9x512x5_d2) v
        pads_S9x512x5_S9x512x128_000_000_01230 h_S_
      (ix3 g e (⟨4, by omega⟩ : Fin 128)) = x8 (ix3 g e (0 : Fin 1)) := by
  refine (pad_apply_of_inside _ _ _ _ v pads_S9x512x5_S9x512x128_000_000_01230 h_S_
    (ix3 g e (⟨4, by omega⟩ : Fin 128)) (ix3 g e (⟨4, by omega⟩ : Fin 5)) fun a => ?_).trans ?_
  · match a with
    | ⟨0, _⟩ => show g.val = 0 + g.val * (0 + 1); omega
    | ⟨1, _⟩ => show e.val = 0 + e.val * (0 + 1); omega
    | ⟨2, _⟩ => rfl
  · refine concatenate_pair_apply_right 2 x6 x8 concatenates_S9x512x4_S9x512x1_S9x512x5_d2
      (ix3 g e (⟨4, by omega⟩ : Fin 5)) rfl rfl (ix3 g e (0 : Fin 1)) (fun b hb => ?_) ?_
    · match b with
      | ⟨0, _⟩ => rfl
      | ⟨1, _⟩ => rfl
      | ⟨2, _⟩ => exact absurd rfl hb
    · rfl

section Found
variable (m : (ℓ : Loc nD τ sig) → Buf (Elt Ideal) ℓ)

/-- What the region finds in the first padded slab: the host operations' term of the argument arrays. -/
theorem V_main_v1 (c : Dev nD) : (Gen.V (F := Ideal) m c main_v1 : S9x2048x128.Idx → EReal)
      = pad S9x2048x128 ![0, 0, 0] ![0, 0, 103] ![0, 0, 0]
          (concatenate S9x2048x25 2 [⟨S9x2048x4, m ((c : Thread nD τ).loc main_arg7)⟩, ⟨S9x2048x21, m ((c : Thread nD τ).loc main_arg9)⟩]
            concatenates_S9x2048x4_S9x2048x21_S9x2048x25_d2)
          (sitofp (F := Ideal) .f32 (constantI S_ 32 0#32)) pads_S9x2048x25_S9x2048x128_000_000_01030 h_S_ := by
  dsimp only [Gen.V, Gen.V0]
  simp only [Gen.hostOps0, Gen.hostOps0_1, Gen.hostOps0_2, Gen.hostOps0_3, List.flatten_cons, List.flatten_nil,
    List.append_nil, List.cons_append, List.nil_append]
  after_results
  rfl

/-- What the region finds in the second padded slab: the host operations' term of the argument arrays. -/
theorem V_main_v3 (c : Dev nD) : (Gen.V (F := Ideal) m c main_v3 : S9x512x128.Idx → EReal)
      = pad S9x512x128 ![0, 0, 0] ![0, 0, 123] ![0, 0, 0]
          (concatenate S9x512x5 2 [⟨S9x512x4, m ((c : Thread nD τ).loc main_arg6)⟩, ⟨S9x512x1, m ((c : Thread nD τ).loc main_arg8)⟩]
            concatenates_S9x512x4_S9x512x1_S9x512x5_d2)
          (sitofp (F := Ideal) .f32 (constantI S_ 32 0#32)) pads_S9x512x5_S9x512x128_000_000_01230 h_S_ := by
  dsimp only [Gen.V, Gen.V0]
  simp only [Gen.hostOps0, Gen.hostOps0_1, Gen.hostOps0_2, Gen.hostOps0_3, List.flatten_cons, List.flatten_nil,
    List.append_nil, List.cons_append, List.nil_append]
  after_results
  rfl

end Found

end Cert.KernelIdeal.Weights

end
-- ==== Proof.LibMaskedSoftmax.lean ====
/-
  The softmax of a row in which only a run of lanes carries scores.

  Let r be a row of N extended reals and let only the n lanes lo ≤ j < lo + n carry scores, every other lane
  holding −∞ (the row `mrow lo n r` of the row-softmax file).  Then the softmax of that row, read at a live lane
  lo + c, is the softmax of the n live scores alone, read at c.  Three facts give it:

  * −∞ is the unit of max, so the maximum taken from −∞ over all N lanes is the maximum over the n live lanes;
  * −∞ − M = −∞ for every extended real M, and exp (−∞) = 0, so a dead lane adds 0 to the sum of exponentials;
  * the live lanes are the image of Fin n under the injection c ↦ lo + c, so the sum over the N lanes, the dead
    lanes contributing 0, is the sum over Fin n.
-/
import proofs.«123543_j10943576670543_2_alg».proof.Proof.LibRowSoftmax
import Mathlib.Data.Finset.Fold
import Mathlib.Algebra.BigOperators.Group.Finset.Basic
import Mathlib.Data.EReal.Operations

noncomputable section

namespace Cert.LibMaskedSoftmax

open Idealize.ShloMosaic Cert.LibRowSoftmax

/-- The lane lo + c of a row of N lanes, for c among the n live lanes. -/
def lane {N : ℕ} (lo n : ℕ) (hN : lo + n ≤ N) (c : Fin n) : Fin N := ⟨lo + c.val, by omega⟩

theorem lane_val {N : ℕ} (lo n : ℕ) (hN : lo + n ≤ N) (c : Fin n) : (lane lo n hN c).val = lo + c.val := rfl

/-- c ↦ lo + c is injective. -/
theorem lane_injective {N : ℕ} (lo n : ℕ) (hN : lo + n ≤ N) : Function.Injective (lane (N := N) lo n hN) := by
  intro a b h
  have h' : lo + a.val = lo + b.val := congrArg Fin.val h
  exact Fin.ext (by omega)

/-- A lane in the live run is lo + c for some c. -/
theorem exists_lane {N : ℕ} (lo n : ℕ) (hN : lo + n ≤ N) (j : Fin N) (hj : lo ≤ j.val ∧ j.val < lo + n) :
    ∃ c : Fin n, lane lo n hN c = j :=
  ⟨⟨j.val - lo, by omega⟩, Fin.ext (by show lo + (j.val - lo) = j.val; omega)⟩

/-- At a live lane the masked row holds the score. -/
theorem mrow_lane {N : ℕ} (lo n : ℕ) (hN : lo + n ≤ N) (r : Fin N → EReal) (c : Fin n) :
    mrow lo n r (lane lo n hN c) = r (lane lo n hN c) := by
  have h : lo ≤ (lane lo n hN c).val ∧ (lane lo n hN c).val < lo + n := by
    rw [lane_val]; exact ⟨by omega, by omega⟩
  simp only [mrow, if_pos h]

/-- Outside the live run the masked row holds −∞. -/
theorem mrow_dead {N : ℕ} (lo n : ℕ) (r : Fin N → EReal) (j : Fin N) (hj : ¬ (lo ≤ j.val ∧ j.val < lo + n)) :
    mrow lo n r j = ⊥ := by
  simp only [mrow, if_neg hj]

/-- The maximum from −∞ over all N lanes of the masked row is the maximum from −∞ over the n live scores:
    −∞ is the unit of max. -/
theorem fold_max_mrow {N : ℕ} (lo n : ℕ) (hN : lo + n ≤ N) (r : Fin N → EReal) :
    (Finset.univ : Finset (Fin N)).fold max ⊥ (mrow lo n r)
      = (Finset.univ : Finset (Fin n)).fold max ⊥ (fun c => r (lane lo n hN c)) := by
  apply le_antisymm
  · refine (Finset.fold_max_le _).2 ⟨bot_le, fun j _ => ?_⟩
    by_cases hj : lo ≤ j.val ∧ j.val < lo + n
    · obtain ⟨c, rfl⟩ := exists_lane lo n hN j hj
      rw [mrow_lane]
      exact (Finset.le_fold_max _).2 (Or.inr ⟨c, Finset.mem_univ c, le_rfl⟩)
    · rw [mrow_dead lo n r j hj]; exact bot_le
  · refine (Finset.fold_max_le _).2 ⟨bot_le, fun c _ => ?_⟩
    exact (Finset.le_fold_max _).2 (Or.inr ⟨lane lo n hN c, Finset.mem_univ _, le_of_eq (mrow_lane lo n hN r c).symm⟩)

/-- The two rows have the same maximum. -/
theorem rowMax_mrow {N : ℕ} (lo n : ℕ) (hN : lo + n ≤ N) (r : Fin N → EReal) :
    rowMax (mrow lo n r) = rowMax (fun c : Fin n => r (lane lo n hN c)) := by
  unfold rowMax
  rw [fold_max_mrow lo n hN r]

/-- A dead lane adds 0 to the sum of exponentials, whatever is subtracted: −∞ − M = −∞ and exp (−∞) = 0. -/
theorem exp_dead_sub (M : EReal) : Ideal.exp ((⊥ : EReal) - M) = 0 := by
  rw [sub_eq_add_neg, EReal.bot_add, Ideal.exp_bot]

/-- The sum of exponentials over the N lanes of the masked row is the sum over the n live scores. -/
theorem sum_exp_mrow {N : ℕ} (lo n : ℕ) (hN : lo + n ≤ N) (r : Fin N → EReal) (M : EReal) :
    ∑ k : Fin N, Ideal.exp (mrow lo n r k - M) = ∑ c : Fin n, Ideal.exp (r (lane lo n hN c) - M) := by
  symm
  refine Fintype.sum_of_injective (lane lo n hN) (lane_injective lo n hN) _ _ (fun j hj => ?_) (fun c => ?_)
  · have hdead : ¬ (lo ≤ j.val ∧ j.val < lo + n) := fun h => hj (by
      obtain ⟨c, hc⟩ := exists_lane lo n hN j h
      exact ⟨c, hc⟩)
    rw [mrow_dead lo n r j hdead, exp_dead_sub]
  · rw [mrow_lane]

/-- The softmax of the masked row at a live lane lo + c is the softmax of the live scores at c. -/
theorem rowSoft_mrow {N : ℕ} (lo n : ℕ) (hN : lo + n ≤ N) (r : Fin N → EReal) (c : Fin n) :
    rowSoft (mrow lo n r) ⟨lo + c.val, by omega⟩ = rowSoft (fun c' : Fin n => r ⟨lo + c'.val, by omega⟩) c := by
  show rowSoft (mrow lo n r) (lane lo n hN c) = rowSoft (fun c' : Fin n => r (lane lo n hN c')) c
  unfold rowSoft
  rw [rowMax_mrow lo n hN r, sum_exp_mrow lo n hN r, mrow_lane]

end Cert.LibMaskedSoftmax

end
-- ==== Proof.Slices.lean ====
/-
  The four host slices of the two output slabs, as functions of the unpadded weights.

  A slice along the last axis reads the slab at the lane moved by the slice's offset.  The first slab's lanes below 4
  are outside the softmax's run of lanes and hold the plain product; its lanes 4 + c, c < 21, are inside it and hold the
  softmax of the row restricted to those lanes, which is the softmax of the 21 live scores.  The second slab holds
  the plain product at every lane.  Wherever a product reads the padded weight slab it reads it at a lane where the
  slab agrees with an unpadded weight array, so the product is the one against that array.
-/
import proofs.«123543_j10943576670543_2_alg».proof.Proof.Spec
import proofs.«123543_j10943576670543_2_alg».proof.Proof.LibMaskedSoftmax
import proofs.«123543_j10943576670543_2_alg».proof.Proof.Gen.KernelIdeal
import Idealize.ShloMosaic.Lib.Pipeline.Value
import Idealize.ShloMosaic.Lib.ValueIdx

noncomputable section

namespace Cert.KernelIdeal.Slices

open Cert.KernelIdeal Cert.KernelIdeal.Gen Idealize.ShloMosaic Idealize.ShloMosaic.ValueIdx Cert.LibRowSoftmax Cert.Spec

/-- The first four lanes of the first slab: the raw product against the first weight array. -/
theorem slice_offset (X : Spec.Arr3 9 4096 2048) (W1 : Spec.Arr3 9 2048 128) (x7 : Spec.Arr3 9 2048 4)
    (hW : ∀ (g : Fin 9) (d : Fin 2048) (f : Fin 4), W1 (ix3 g d (⟨f.val, by omega⟩ : Fin 128)) = x7 (ix3 g d f)) :
    extractStridedSlice S9x4096x4 ![0, 0, 0] (Spec.out0 X W1) slices_S9x4096x128_S9x4096x4_0_0_0
      = fun i => Spec.proj1 X x7 (i 0) (i 1) (i 2) := by
  funext i
  obtain ⟨g, n, f, rfl⟩ : ∃ (g : Fin 9) (n : Fin 4096) (f : Fin 4), i = ix3 g n f := ⟨i 0, i 1, i 2, eq_ix3 i⟩
  rw [extractStridedSlice_apply ![0, 0, 0] (Spec.out0 X W1) slices_S9x4096x128_S9x4096x4_0_0_0 (ix3 g n f)
    (ix3 g n (⟨f.val, by omega⟩ : Fin 128)) (fun a => by
      match a with
      | ⟨0, _⟩ => show g.val = 0 + g.val; omega
      | ⟨1, _⟩ => show n.val = 0 + n.val; omega
      | ⟨2, _⟩ => show f.val = 0 + f.val; omega)]
  show (if 4 ≤ f.val ∧ f.val < 4 + 21 then rowSoft (mrow 4 21 (Spec.proj1 X W1 g n)) (⟨f.val, by omega⟩ : Fin 128)
    else Spec.proj1 X W1 g n (⟨f.val, by omega⟩ : Fin 128)) = Spec.proj1 X x7 g n f
  rw [if_neg (by omega)]
  unfold Spec.proj1
  exact Finset.sum_congr rfl fun d _ => by rw [hW g d f]

/-- Lanes 4 to 24 of the first slab: the softmax of the 21 scores against the second weight array. -/
theorem slice_cls (X : Spec.Arr3 9 4096 2048) (W1 : Spec.Arr3 9 2048 128) (x9 : Spec.Arr3 9 2048 21)
    (hW : ∀ (g : Fin 9) (d : Fin 2048) (c : Fin 21), W1 (ix3 g d (⟨4 + c.val, by omega⟩ : Fin 128)) = x9 (ix3 g d c)) :
    extractStridedSlice S9x4096x21 ![0, 0, 4] (Spec.out0 X W1) slices_S9x4096x128_S9x4096x21_0_0_4
      = fun i => rowSoft (fun c : Fin 21 => Spec.proj1 X x9 (i 0) (i 1) c) (i 2) := by
  funext i
  obtain ⟨g, n, c, rfl⟩ : ∃ (g : Fin 9) (n : Fin 4096) (c : Fin 21), i = ix3 g n c := ⟨i 0, i 1, i 2, eq_ix3 i⟩
  rw [extractStridedSlice_apply ![0, 0, 4] (Spec.out0 X W1) slices_S9x4096x128_S9x4096x21_0_0_4 (ix3 g n c)
    (ix3 g n (⟨4 + c.val, by omega⟩ : Fin 128)) (fun a => by
      match a with
      | ⟨0, _⟩ => show g.val = 0 + g.val; omega
      | ⟨1, _⟩ => show n.val = 0 + n.val; omega
      | ⟨2, _⟩ => rfl)]
  show (if 4 ≤ 4 + c.val ∧ 4 + c.val < 4 + 21
      then rowSoft (mrow 4 21 (Spec.proj1 X W1 g n)) (⟨4 + c.val, by omega⟩ : Fin 128)
      else Spec.proj1 X W1 g n (⟨4 + c.val, by omega⟩ : Fin 128))
    = rowSoft (fun c' : Fin 21 => Spec.proj1 X x9 g n c') c
  rw [if_pos (by omega), Cert.LibMaskedSoftmax.rowSoft_mrow 4 21 (by omega) (Spec.proj1 X W1 g n) c]
  refine congrArg (fun r : Fin 21 → EReal => rowSoft r c) (funext fun c' => ?_)
  unfold Spec.proj1
  exact Finset.sum_congr rfl fun d _ => by rw [hW g d c']

/-- The first four lanes of the second slab: the rectified projection against the first weight array. -/
theorem slice_alpha (X : Spec.Arr3 9 4096 2048) (A : Spec.Arr2 2048 512) (W3 : Spec.Arr3 9 512 128) (x6 : Spec.Arr3 9 512 4)
    (hW : ∀ (g : Fin 9) (e : Fin 512) (f : Fin 4), W3 (ix3 g e (⟨f.val, by omega⟩ : Fin 128)) = x6 (ix3 g e f)) :
    extractStridedSlice S9x4096x4 ![0, 0, 0] (Spec.out1 X A W3) slices_S9x4096x128_S9x4096x4_0_0_0
      = fun i => Spec.proj2 X A x6 (i 0) (i 1) (i 2) := by
  funext i
  obtain ⟨g, n, f, rfl⟩ : ∃ (g : Fin 9) (n : Fin 4096) (f : Fin 4), i = ix3 g n f := ⟨i 0, i 1, i 2, eq_ix3 i⟩
  rw [extractStridedSlice_apply ![0, 0, 0] (Spec.out1 X A W3) slices_S9x4096x128_S9x4096x4_0_0_0 (ix3 g n f)
    (ix3 g n (⟨f.val, by omega⟩ : Fin 128)) (fun a => by
      match a with
      | ⟨0, _⟩ => show g.val = 0 + g.val; omega
      | ⟨1, _⟩ => show n.val = 0 + n.val; omega
      | ⟨2, _⟩ => show f.val = 0 + f.val; omega)]
  show Spec.proj2 X A W3 g n (⟨f.val, by omega⟩ : Fin 128) = Spec.proj2 X A x6 g n f
  unfold Spec.proj2
  exact Finset.sum_congr rfl fun e _ => by rw [hW g e f]

/-- Lane 4 of the second slab: the rectified projection against the second weight array's one lane. -/
theorem slice_alpha_cls (X : Spec.Arr3 9 4096 2048) (A : Spec.Arr2 2048 512) (W3 : Spec.Arr3 9 512 128) (x8 : Spec.Arr3 9 512 1)
    (hW : ∀ (g : Fin 9) (e : Fin 512), W3 (ix3 g e (⟨4, by omega⟩ : Fin 128)) = x8 (ix3 g e (0 : Fin 1))) :
    extractStridedSlice S9x4096x1 ![0, 0, 4] (Spec.out1 X A W3) slices_S9x4096x128_S9x4096x1_0_0_4
      = fun i => Spec.proj2 X A x8 (i 0) (i 1) (i 2) := by
  funext i
  obtain ⟨g, n, z, rfl⟩ : ∃ (g : Fin 9) (n : Fin 4096) (z : Fin 1), i = ix3 g n z := ⟨i 0, i 1, i 2, eq_ix3 i⟩
  have hz : z = 0 := Subsingleton.elim _ _
  subst hz
  rw [extractStridedSlice_apply ![0, 0, 4] (Spec.out1 X A W3) slices_S9x4096x128_S9x4096x1_0_0_4 (ix3 g n (0 : Fin 1))
    (ix3 g n (⟨4, by omega⟩ : Fin 128)) (fun a => by
      match a with
      | ⟨0, _⟩ => show g.val = 0 + g.val; omega
      | ⟨1, _⟩ => show n.val = 0 + n.val; omega
      | ⟨2, _⟩ => rfl)]
  show Spec.proj2 X A W3 g n (⟨4, by omega⟩ : Fin 128) = Spec.proj2 X A x8 g n (0 : Fin 1)
  unfold Spec.proj2
  exact Finset.sum_congr rfl fun e _ => by rw [hW g e]

end Cert.KernelIdeal.Slices

end
-- ==== Proof.KernelRun.lean ====
/-
  The kernel program's run, read as values: its four results as the result functions of the argument arrays.

  The region leaves the two output slabs at their whole-array functions of the features, the projection and the two
  padded weight slabs; the host operations after it read four pieces of them.  Each piece reads a padded slab only at
  lanes where it agrees with an unpadded weight array, so each piece is the corresponding piece of the result functions.
-/
import proofs.«123543_j10943576670543_2_alg».proof.Proof.Results
import proofs.«123543_j10943576670543_2_alg».proof.Proof.Weights
import proofs.«123543_j10943576670543_2_alg».proof.Proof.Slices

noncomputable section

namespace Cert.KernelIdeal.KernelRun

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The first padded slab, as the region finds it, at a lane below 4: the box-regression weights. -/
theorem w1_left (c : Dev nD) (g : Fin 9) (d : Fin 2048) (f : Fin 4) :
    (V m c main_v1 : S9x2048x128.Idx → EReal) (ix3 g d (⟨f.val, by omega⟩ : Fin 128))
      = (m ((c.tc : Thread nD τ).loc main_arg7) : S9x2048x4.Idx → EReal) (ix3 g d f) :=
  (congrFun (Weights.V_main_v1 m c) _).trans (Weights.wbc_left _ _ _ g d f)

/-- The first padded slab at lane 4 + c: the class weights. -/
theorem w1_right (c : Dev nD) (g : Fin 9) (d : Fin 2048) (k : Fin 21) :
    (V m c main_v1 : S9x2048x128.Idx → EReal) (ix3 g d (⟨4 + k.val, by omega⟩ : Fin 128))
      = (m ((c.tc : Thread nD τ).loc main_arg9) : S9x2048x21.Idx → EReal) (ix3 g d k) :=
  (congrFun (Weights.V_main_v1 m c) _).trans (Weights.wbc_right _ _ _ g d k)

/-- The second padded slab at a lane below 4: the alpha weights. -/
theorem w3_left (c : Dev nD) (g : Fin 9) (e : Fin 512) (f : Fin 4) :
    (V m c main_v3 : S9x512x128.Idx → EReal) (ix3 g e (⟨f.val, by omega⟩ : Fin 128))
      = (m ((c.tc : Thread nD τ).loc main_arg6) : S9x512x4.Idx → EReal) (ix3 g e f) :=
  (congrFun (Weights.V_main_v3 m c) _).trans (Weights.walpha_left _ _ _ g e f)

/-- The second padded slab at lane 4: the alpha-class weights. -/
theorem w3_right (c : Dev nD) (g : Fin 9) (e : Fin 512) :
    (V m c main_v3 : S9x512x128.Idx → EReal) (ix3 g e (⟨4, by omega⟩ : Fin 128))
      = (m ((c.tc : Thread nD τ).loc main_arg8) : S9x512x1.Idx → EReal) (ix3 g e (0 : Fin 1)) :=
  (congrFun (Weights.V_main_v3 m c) _).trans (Weights.walpha_right _ _ _ g e)

/-- The offset piece of the first slab. -/
theorem off_eq (c : Dev nD) :
    extractStridedSlice S9x4096x4 ![0, 0, 0] (Spec.out0 (V m c main_arg0) (V m c main_v1)) slices_S9x4096x128_S9x4096x4_0_0_0
      = Results.offs (m ((c.tc : Thread nD τ).loc main_arg0)) (m ((c.tc : Thread nD τ).loc main_arg7)) := by
  rw [V_main_arg0 m c]
  exact Slices.slice_offset _ _ _ (w1_left m c)

/-- The class piece of the first slab. -/
theorem cls_eq (c : Dev nD) :
    extractStridedSlice S9x4096x21 ![0, 0, 4] (Spec.out0 (V m c main_arg0) (V m c main_v1)) slices_S9x4096x128_S9x4096x21_0_0_4
      = Results.cls (m ((c.tc : Thread nD τ).loc main_arg0)) (m ((c.tc : Thread nD τ).loc main_arg9)) := by
  rw [V_main_arg0 m c]
  exact Slices.slice_cls _ _ _ (w1_right m c)

/-- The alpha piece of the second slab. -/
theorem alpha_eq (c : Dev nD) :
    extractStridedSlice S9x4096x4 ![0, 0, 0] (Spec.out1 (V m c main_arg0) (V m c main_arg5) (V m c main_v3)) slices_S9x4096x128_S9x4096x4_0_0_0
      = Results.alph (m ((c.tc : Thread nD τ).loc main_arg0)) (m ((c.tc : Thread nD τ).loc main_arg5)) (m ((c.tc : Thread nD τ).loc main_arg6)) := by
  rw [V_main_arg0 m c, V_main_arg5 m c]
  exact Slices.slice_alpha _ _ _ _ (w3_left m c)

/-- The alpha-class piece of the second slab. -/
theorem alphac_eq (c : Dev nD) :
    extractStridedSlice S9x4096x1 ![0, 0, 4] (Spec.out1 (V m c main_arg0) (V m c main_arg5) (V m c main_v3)) slices_S9x4096x128_S9x4096x1_0_0_4
      = Results.alphc (m ((c.tc : Thread nD τ).loc main_arg0)) (m ((c.tc : Thread nD τ).loc main_arg5)) (m ((c.tc : Thread nD τ).loc main_arg8)) := by
  rw [V_main_arg0 m c, V_main_arg5 m c]
  exact Slices.slice_alpha_cls _ _ _ _ (w3_right m c)

/-- Every weakly fair execution of the kernel program terminates with its four results at the result functions of the
    argument arrays, and the argument arrays unchanged. -/
theorem run : θ_run defs (onTc (τ := τ) (main (F := Ideal))) ⟨m, fun _ => 0, ρ⟩ fun r => ∀ c : Dev nD,
      r.2.mem ((c.tc : Thread nD τ).loc main_v23) = Tail.comb (F := Ideal) (m ((c.tc : Thread nD τ).loc main_arg3)) (Results.offs (m ((c.tc : Thread nD τ).loc main_arg0)) (m ((c.tc : Thread nD τ).loc main_arg7))) (Results.alph (m ((c.tc : Thread nD τ).loc main_arg0)) (m ((c.tc : Thread nD τ).loc main_arg5)) (m ((c.tc : Thread nD τ).loc main_arg6)))
      ∧ r.2.mem ((c.tc : Thread nD τ).loc main_v21) = Tail.pred (F := Ideal) (m ((c.tc : Thread nD τ).loc main_arg3)) (Results.offs (m ((c.tc : Thread nD τ).loc main_arg0)) (m ((c.tc : Thread nD τ).loc main_arg7)))
      ∧ r.2.mem ((c.tc : Thread nD τ).loc main_v6) = Results.cls (m ((c.tc : Thread nD τ).loc main_arg0)) (m ((c.tc : Thread nD τ).loc main_arg9))
      ∧ r.2.mem ((c.tc : Thread nD τ).loc main_v34) = Tail.soft1 (F := Ideal) (Results.alphc (m ((c.tc : Thread nD τ).loc main_arg0)) (m ((c.tc : Thread nD τ).loc main_arg5)) (m ((c.tc : Thread nD τ).loc main_arg8)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c => ⟨
      ((h c).2 main_v23 (Pipeline.mem_restRefs_of main_v23 (by decide) (by decide))).trans
        ((Tail.tail_v23 m c).trans (by rw [off_eq m c, alpha_eq m c])),
      ((h c).2 main_v21 (Pipeline.mem_restRefs_of main_v21 (by decide) (by decide))).trans
        ((Tail.tail_v21 m c).trans (by rw [off_eq m c])),
      ((h c).2 main_v6 (Pipeline.mem_restRefs_of main_v6 (by decide) (by decide))).trans
        ((Tail.tail_v6 m c).trans (cls_eq m c)),
      ((h c).2 main_v34 (Pipeline.mem_restRefs_of main_v34 (by decide) (by decide))).trans
        ((Tail.tail_v34 m c).trans (by rw [alphac_eq m c])),
      ((h c).1 0).trans (((dats m 0 c).arrAt_in 0 rfl _).trans ((A_eq m c 0).trans (V_main_arg0 m c))),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      ((h c).1 1).trans (((dats m 0 c).arrAt_in 1 rfl _).trans ((A_eq m c 1).trans (V_main_arg5 m c))),
      (((h c).2 main_arg6 (Pipeline.mem_restRefs_of main_arg6 (by decide) (by decide))).trans (W_main_arg6 m (dats m) c)),
      (((h c).2 main_arg7 (Pipeline.mem_restRefs_of main_arg7 (by decide) (by decide))).trans (W_main_arg7 m (dats m) c)),
      (((h c).2 main_arg8 (Pipeline.mem_restRefs_of main_arg8 (by decide) (by decide))).trans (W_main_arg8 m (dats m) c)),
      (((h c).2 main_arg9 (Pipeline.mem_restRefs_of main_arg9 (by decide) (by decide))).trans (W_main_arg9 m (dats m) c))⟩)
    (run_main m ρ)

end Cert.KernelIdeal.KernelRun

end
-- ==== Proof.RefStages.lean ====
import proofs.«123543_j10943576670543_2_alg».proof.Proof.Gen.ReferenceIdeal.Read
import proofs.«123543_j10943576670543_2_alg».proof.Proof.Gen.ReferenceIdeal.Run
import proofs.«123543_j10943576670543_2_alg».proof.Proof.Spec
import proofs.«123543_j10943576670543_2_alg».proof.Proof.LibRowSoftmax
import Idealize.ShloMosaic.Lib.ValueIdx
import Idealize.ShloMosaic.PureOps.Reduce
import Idealize.ShloMosaic.PureOps.Ideal.Laws

/-
  Four stages of the reference, each read at an index, are the specification's functions.

  The reference multiplies the 9 × 4096 × 2048 features X, slice by slice, into per-slice weight slabs
  (proj1(g,n,j) = Σ_d X(g,n,d)·W(g,d,j)), and multiplies the rectified projection
  feat(g,n,e) = max(Σ_d X(g,n,d)·A(d,e), 0) into per-slice weight slabs (proj2(g,n,j) = Σ_e feat(g,n,e)·W(g,e,j)).
  Its stages 3, 2 and 31 are such products; its stage 30 is the softmax, along the 21 classes, of the product of the
  features with the class weights: the row's maximum is taken from −∞ and joined with −∞ once more, the exponentials
  of the differences are summed from 0, and each exponential is divided by the sum.

  Every stage is read at an index (g, n, j) given by its three coordinates, each a variable of a literal extent; the
  index a stage reads of an operand is identified with the index built from those coordinates, coordinate by
  coordinate.  No stage is unfolded as a whole array.
-/

noncomputable section

namespace Cert.ReferenceIdeal.RefStages

open Cert.ReferenceIdeal Cert.ReferenceIdeal.Read Cert.Spec Cert.LibRowSoftmax Idealize.ShloMosaic
  Idealize.ShloMosaic.ValueIdx

/-- The word of −∞ denotes −∞. -/
theorem ofBits_negInf_f32 : Ideal.ofBits .f32 0xFF800000#32 = ⊥ := by simp [Ideal.ofBits, Ideal.ieee]

/-! ## The products -/

/-- Stage 3 at (g, n, j): row (g, n) of the features against column j of slice g of the 4-column slab. -/
theorem v3_at (X : (⟨S9x4096x2048, .f32⟩ : BufTy).Contents (Elt Ideal)) (x7 : (⟨S9x2048x4, .f32⟩ : BufTy).Contents (Elt Ideal))
    (g : Fin 9) (n : Fin 4096) (j : Fin 4) :
    val_main_v3 (F := Ideal) X x7 (ix3 g n j) = Spec.proj1 X x7 g n j := by
  rw [val_main_v3_apply]
  unfold Spec.proj1
  refine Finset.sum_congr rfl fun k _ => ?_
  have el : lidx_main_v3 (ix3 g n j) k = ix3 g n k := funext fun a => Fin.ext (by match a with | ⟨0, _⟩ => rfl | ⟨1, _⟩ => rfl | ⟨2, _⟩ => rfl)
  have er : ridx_main_v3 (ix3 g n j) k = ix3 g k j := funext fun a => Fin.ext (by match a with | ⟨0, _⟩ => rfl | ⟨1, _⟩ => rfl | ⟨2, _⟩ => rfl)
  rw [el, er]

/-- Stage 3 is the product of the features with the 4-column slab. -/
theorem ref_v3 (X : (⟨S9x4096x2048, .f32⟩ : BufTy).Contents (Elt Ideal)) (x7 : (⟨S9x2048x4, .f32⟩ : BufTy).Contents (Elt Ideal)) :
    Read.val_main_v3 (F := Ideal) X x7 = fun i => Spec.proj1 X x7 (i 0) (i 1) (i 2) := by
  funext i
  obtain ⟨g, n, j, rfl⟩ : ∃ (g : Fin 9) (n : Fin 4096) (j : Fin 4), i = ix3 g n j := ⟨i 0, i 1, i 2, eq_ix3 i⟩
  exact v3_at X x7 g n j

/-- Stage 1 at (g, n, e): the rectified projection, the maximum of the projection and the zero the program
    broadcasts. -/
theorem v1_at (X : (⟨S9x4096x2048, .f32⟩ : BufTy).Contents (Elt Ideal)) (A : (⟨S2048x512, .f32⟩ : BufTy).Contents (Elt Ideal))
    (g : Fin 9) (n : Fin 4096) (e : Fin 512) :
    val_main_v1 (F := Ideal) X A (ix3 g n e) = Spec.feat X A g n e := by
  rw [val_main_v1_apply, val_main_v0_apply, val_main_call0_v0_apply, val_main_call0_cst_apply, Ideal.maximumf_def,
    Ideal.ofBits_def, Ideal.ofBits_zero_f32]
  unfold Spec.feat
  refine congrArg (max · 0) (Finset.sum_congr rfl fun k _ => ?_)
  have el : lidx_main_v0 (ix3 g n e) k = ix3 g n k := funext fun a => Fin.ext (by match a with | ⟨0, _⟩ => rfl | ⟨1, _⟩ => rfl | ⟨2, _⟩ => rfl)
  have er : ridx_main_v0 (ix3 g n e) k = ix2 k e := funext fun a => Fin.ext (by match a with | ⟨0, _⟩ => rfl | ⟨1, _⟩ => rfl)
  rw [el, er]

/-- Stage 2 at (g, n, j): row (g, n) of the rectified projection against column j of slice g of the 4-column slab. -/
theorem v2_at (X : (⟨S9x4096x2048, .f32⟩ : BufTy).Contents (Elt Ideal)) (A : (⟨S2048x512, .f32⟩ : BufTy).Contents (Elt Ideal)) (x6 : (⟨S9x512x4, .f32⟩ : BufTy).Contents (Elt Ideal))
    (g : Fin 9) (n : Fin 4096) (j : Fin 4) :
    val_main_v2 (F := Ideal) X A x6 (ix3 g n j) = Spec.proj2 X A x6 g n j := by
  rw [val_main_v2_apply]
  unfold Spec.proj2
  refine Finset.sum_congr rfl fun k _ => ?_
  have el : lidx_main_v2 (ix3 g n j) k = ix3 g n k := funext fun a => Fin.ext (by match a with | ⟨0, _⟩ => rfl | ⟨1, _⟩ => rfl | ⟨2, _⟩ => rfl)
  have er : ridx_main_v2 (ix3 g n j) k = ix3 g k j := funext fun a => Fin.ext (by match a with | ⟨0, _⟩ => rfl | ⟨1, _⟩ => rfl | ⟨2, _⟩ => rfl)
  rw [el, er, v1_at]

/-- Stage 2 is the product of the rectified projection with the 4-column slab. -/
theorem ref_v2 (X : (⟨S9x4096x2048, .f32⟩ : BufTy).Contents (Elt Ideal)) (A : (⟨S2048x512, .f32⟩ : BufTy).Contents (Elt Ideal)) (x6 : (⟨S9x512x4, .f32⟩ : BufTy).Contents (Elt Ideal)) :
    Read.val_main_v2 (F := Ideal) X A x6 = fun i => Spec.proj2 X A x6 (i 0) (i 1) (i 2) := by
  funext i
  obtain ⟨g, n, j, rfl⟩ : ∃ (g : Fin 9) (n : Fin 4096) (j : Fin 4), i = ix3 g n j := ⟨i 0, i 1, i 2, eq_ix3 i⟩
  exact v2_at X A x6 g n j

/-- Stage 31 at (g, n, j): row (g, n) of the rectified projection against the one column of slice g of the
    1-column slab. -/
theorem v31_at (X : (⟨S9x4096x2048, .f32⟩ : BufTy).Contents (Elt Ideal)) (A : (⟨S2048x512, .f32⟩ : BufTy).Contents (Elt Ideal)) (x8 : (⟨S9x512x1, .f32⟩ : BufTy).Contents (Elt Ideal))
    (g : Fin 9) (n : Fin 4096) (j : Fin 1) :
    val_main_v31 (F := Ideal) X A x8 (ix3 g n j) = Spec.proj2 X A x8 g n j := by
  rw [val_main_v31_apply]
  unfold Spec.proj2
  refine Finset.sum_congr rfl fun k _ => ?_
  have el : lidx_main_v31 (ix3 g n j) k = ix3 g n k := funext fun a => Fin.ext (by match a with | ⟨0, _⟩ => rfl | ⟨1, _⟩ => rfl | ⟨2, _⟩ => rfl)
  have er : ridx_main_v31 (ix3 g n j) k = ix3 g k j := funext fun a => Fin.ext (by match a with | ⟨0, _⟩ => rfl | ⟨1, _⟩ => rfl | ⟨2, _⟩ => rfl)
  rw [el, er, v1_at]

/-- Stage 31 is the product of the rectified projection with the 1-column slab. -/
theorem ref_v31 (X : (⟨S9x4096x2048, .f32⟩ : BufTy).Contents (Elt Ideal)) (A : (⟨S2048x512, .f32⟩ : BufTy).Contents (Elt Ideal)) (x8 : (⟨S9x512x1, .f32⟩ : BufTy).Contents (Elt Ideal)) :
    Read.val_main_v31 (F := Ideal) X A x8 = fun i => Spec.proj2 X A x8 (i 0) (i 1) (i 2) := by
  funext i
  obtain ⟨g, n, j, rfl⟩ : ∃ (g : Fin 9) (n : Fin 4096) (j : Fin 1), i = ix3 g n j := ⟨i 0, i 1, i 2, eq_ix3 i⟩
  exact v31_at X A x8 g n j

/-! ## The softmax along the classes -/

/-- The index of a 9 × 4096 × 21 array that (g, n) with the coordinate c put back on the last axis names is
    (g, n, c). -/
theorem lift_cls (h : S9x4096x21.Reduces [2] S9x4096) (g : Fin 9) (n : Fin 4096) (c : Fin 21) :
    h.lift (ix2 g n) c = ix3 g n c := by
  funext a
  match a with
  | ⟨0, _⟩ => exact Fin.ext rfl
  | ⟨1, _⟩ => exact Fin.ext rfl
  | ⟨2, _⟩ => exact Fin.ext rfl

/-- A maximum along the last axis of a 9 × 4096 × 21 array, read at (g, n): the fold of max over the row's 21
    entries from the start value (max is commutative and associative, so the order of the fold does not matter). -/
theorem reduce_max_at (y : S9x4096x21.Idx → EReal) (init : S_.Idx → EReal) (h' : S9x4096x21.ReducesTo [2] S9x4096)
    (hu : 0 < S_.numel) (g : Fin 9) (n : Fin 4096) :
    Host.reduce (FloatOps.maximumf (F := Ideal) (φ := .f32)) y init h' hu (ix2 g n)
      = (Finset.univ : Finset (Fin 21)).fold max (init (Shape.Idx.first hu)) (fun c => y (ix3 g n c)) := by
  have h : S9x4096x21.Reduces [2] S9x4096 := by decide
  rw [Host.reduce_eq_fold_single _ y init h' h hu (ix2 g n)]
  exact Finset.fold_congr (fun c _ => congrArg y (lift_cls h g n c))

/-- Stage 19 at (g, n, c): the score of class c, row (g, n) of the features against column c of slice g of the
    21-column slab. -/
theorem v19_at (X : (⟨S9x4096x2048, .f32⟩ : BufTy).Contents (Elt Ideal)) (x9 : (⟨S9x2048x21, .f32⟩ : BufTy).Contents (Elt Ideal))
    (g : Fin 9) (n : Fin 4096) (c : Fin 21) :
    val_main_v19 (F := Ideal) X x9 (ix3 g n c) = Spec.proj1 X x9 g n c := by
  rw [val_main_v19_apply]
  unfold Spec.proj1
  refine Finset.sum_congr rfl fun k _ => ?_
  have el : lidx_main_v19 (ix3 g n c) k = ix3 g n k := funext fun a => Fin.ext (by match a with | ⟨0, _⟩ => rfl | ⟨1, _⟩ => rfl | ⟨2, _⟩ => rfl)
  have er : ridx_main_v19 (ix3 g n c) k = ix3 g k c := funext fun a => Fin.ext (by match a with | ⟨0, _⟩ => rfl | ⟨1, _⟩ => rfl | ⟨2, _⟩ => rfl)
  rw [el, er]

/-- Stage 20 at (g, n): the maximum, from −∞, of the 21 scores of row (g, n). -/
theorem v20_at (X : (⟨S9x4096x2048, .f32⟩ : BufTy).Contents (Elt Ideal)) (x9 : (⟨S9x2048x21, .f32⟩ : BufTy).Contents (Elt Ideal))
    (g : Fin 9) (n : Fin 4096) :
    val_main_v20 (F := Ideal) X x9 (ix2 g n)
      = (Finset.univ : Finset (Fin 21)).fold max ⊥ (fun c => Spec.proj1 X x9 g n c) := by
  have hy : ∀ c : Fin 21, val_main_v19 (F := Ideal) X x9 (ix3 g n c) = Spec.proj1 X x9 g n c :=
    fun c => v19_at X x9 g n c
  unfold val_main_v20
  generalize val_main_v19 (F := Ideal) X x9 = y at hy ⊢
  rw [reduce_max_at y _ _ _ g n, val_main_cst_3_apply, Ideal.ofBits_def, ofBits_negInf_f32]
  exact Finset.fold_congr (fun c _ => hy c)

/-- Stage 22 at (g, n): the row's maximum joined with −∞ once more. -/
theorem v22_at (X : (⟨S9x4096x2048, .f32⟩ : BufTy).Contents (Elt Ideal)) (x9 : (⟨S9x2048x21, .f32⟩ : BufTy).Contents (Elt Ideal))
    (g : Fin 9) (n : Fin 4096) :
    val_main_v22 (F := Ideal) X x9 (ix2 g n) = rowMax (fun c : Fin 21 => Spec.proj1 X x9 g n c) := by
  rw [val_main_v22_apply, val_main_v21_apply, val_main_cst_4_apply, v20_at, Ideal.maximumf_def, Ideal.ofBits_def,
    ofBits_negInf_f32]
  rfl

/-- Stage 24 at (g, n, c): the row's maximum, laid across the 21 classes. -/
theorem v24_at (X : (⟨S9x4096x2048, .f32⟩ : BufTy).Contents (Elt Ideal)) (x9 : (⟨S9x2048x21, .f32⟩ : BufTy).Contents (Elt Ideal))
    (g : Fin 9) (n : Fin 4096) (c : Fin 21) :
    val_main_v24 (F := Ideal) X x9 (ix3 g n c) = rowMax (fun c' : Fin 21 => Spec.proj1 X x9 g n c') := by
  have e : idx_main_v23 (idx_main_v24 (ix3 g n c)) = ix2 g n := funext fun a => Fin.ext (by match a with | ⟨0, _⟩ => rfl | ⟨1, _⟩ => rfl)
  rw [val_main_v24_apply, val_main_v23_apply, e, v22_at]

/-- Stage 26 at (g, n, c): the exponential of the score less the row's maximum. -/
theorem v26_at (X : (⟨S9x4096x2048, .f32⟩ : BufTy).Contents (Elt Ideal)) (x9 : (⟨S9x2048x21, .f32⟩ : BufTy).Contents (Elt Ideal))
    (g : Fin 9) (n : Fin 4096) (c : Fin 21) :
    val_main_v26 (F := Ideal) X x9 (ix3 g n c)
      = Ideal.exp (Spec.proj1 X x9 g n c - rowMax (fun c' : Fin 21 => Spec.proj1 X x9 g n c')) := by
  rw [val_main_v26_apply, val_main_v25_apply, v19_at, v24_at, Ideal.hostUnary_exp_def, Ideal.subf_def]

/-- Stage 27 at (g, n): the sum, from 0, of the row's 21 exponentials. -/
theorem v27_at (X : (⟨S9x4096x2048, .f32⟩ : BufTy).Contents (Elt Ideal)) (x9 : (⟨S9x2048x21, .f32⟩ : BufTy).Contents (Elt Ideal))
    (g : Fin 9) (n : Fin 4096) :
    val_main_v27 (F := Ideal) X x9 (ix2 g n)
      = 0 + ∑ k : Fin 21, Ideal.exp (Spec.proj1 X x9 g n k - rowMax (fun c' : Fin 21 => Spec.proj1 X x9 g n c')) := by
  rw [val_main_v27_apply, val_main_cst_5_apply, Ideal.ofBits_def, Ideal.ofBits_zero_f32]
  refine congrArg (0 + ·) (Finset.sum_congr rfl fun k _ => ?_)
  have e : idx_main_v27 (ix2 g n) k = ix3 g n k := funext fun a => Fin.ext (by match a with | ⟨0, _⟩ => rfl | ⟨1, _⟩ => rfl | ⟨2, _⟩ => rfl)
  rw [e, v26_at]

/-- Stage 29 at (g, n, c): the row's sum of exponentials, laid across the 21 classes. -/
theorem v29_at (X : (⟨S9x4096x2048, .f32⟩ : BufTy).Contents (Elt Ideal)) (x9 : (⟨S9x2048x21, .f32⟩ : BufTy).Contents (Elt Ideal))
    (g : Fin 9) (n : Fin 4096) (c : Fin 21) :
    val_main_v29 (F := Ideal) X x9 (ix3 g n c)
      = 0 + ∑ k : Fin 21, Ideal.exp (Spec.proj1 X x9 g n k - rowMax (fun c' : Fin 21 => Spec.proj1 X x9 g n c')) := by
  have e : idx_main_v28 (idx_main_v29 (ix3 g n c)) = ix2 g n := funext fun a => Fin.ext (by match a with | ⟨0, _⟩ => rfl | ⟨1, _⟩ => rfl)
  rw [val_main_v29_apply, val_main_v28_apply, e, v27_at]

/-- Stage 30 at (g, n, c): the softmax of the row's 21 scores at class c. -/
theorem v30_at (X : (⟨S9x4096x2048, .f32⟩ : BufTy).Contents (Elt Ideal)) (x9 : (⟨S9x2048x21, .f32⟩ : BufTy).Contents (Elt Ideal))
    (g : Fin 9) (n : Fin 4096) (c : Fin 21) :
    val_main_v30 (F := Ideal) X x9 (ix3 g n c) = rowSoft (fun c' : Fin 21 => Spec.proj1 X x9 g n c') c := by
  rw [val_main_v30_apply, v26_at, v29_at, Ideal.hostDivf_def]
  rfl

/-- Stage 30 is the softmax, along the classes, of the product of the features with the 21-column slab. -/
theorem ref_v30 (X : (⟨S9x4096x2048, .f32⟩ : BufTy).Contents (Elt Ideal)) (x9 : (⟨S9x2048x21, .f32⟩ : BufTy).Contents (Elt Ideal)) :
    Read.val_main_v30 (F := Ideal) X x9 = fun i => rowSoft (fun c : Fin 21 => Spec.proj1 X x9 (i 0) (i 1) c) (i 2) := by
  funext i
  obtain ⟨g, n, c, rfl⟩ : ∃ (g : Fin 9) (n : Fin 4096) (c : Fin 21), i = ix3 g n c := ⟨i 0, i 1, i 2, eq_ix3 i⟩
  exact v30_at X x9 g n c

end Cert.ReferenceIdeal.RefStages

end
-- ==== Proof.RefRun.lean ====
/-
  The reference program's run, read as values: its four results as the same result functions of the argument arrays.

  The reference computes the offset piece, the alpha piece, the class scores and the alpha-class piece by batched
  products, and then applies to them the very operations the kernel program applies after its region: the softmax across
  the slices and the combination.  Each batched product, read index by index, is the corresponding piece of the result
  functions; the operations after them are carried as one function and never opened.
-/
import proofs.«123543_j10943576670543_2_alg».proof.Proof.Results
import proofs.«123543_j10943576670543_2_alg».proof.Proof.RefStages

noncomputable section

namespace Cert.ReferenceIdeal.RefRun

open Cert.ReferenceIdeal Cert.ReferenceIdeal.Gen Idealize.ShloMosaic Idealize.ShloMosaic.TcCoe Idealize.SL.Sem

/-- The reference's combined output is the combination of the result pieces. -/
theorem res0_eq (x0 : (⟨S9x4096x2048, .f32⟩ : BufTy).Contents (Elt Ideal)) (x3 : (⟨S9x4096x5, .f32⟩ : BufTy).Contents (Elt Ideal)) (x5 : (⟨S2048x512, .f32⟩ : BufTy).Contents (Elt Ideal)) (x6 : (⟨S9x512x4, .f32⟩ : BufTy).Contents (Elt Ideal)) (x7 : (⟨S9x2048x4, .f32⟩ : BufTy).Contents (Elt Ideal)) :
    Read.val_main_v18 (F := Ideal) x0 x3 x5 x6 x7
      = Cert.KernelIdeal.Tail.comb (F := Ideal) x3 (Cert.KernelIdeal.Results.offs x0 x7) (Cert.KernelIdeal.Results.alph x0 x5 x6) := by
  rw [show Cert.KernelIdeal.Results.offs x0 x7 = Read.val_main_v3 (F := Ideal) x0 x7 from (RefStages.ref_v3 x0 x7).symm,
    show Cert.KernelIdeal.Results.alph x0 x5 x6 = Read.val_main_v2 (F := Ideal) x0 x5 x6 from (RefStages.ref_v2 x0 x5 x6).symm]
  rfl

/-- The reference's predicted offsets. -/
theorem res1_eq (x0 : (⟨S9x4096x2048, .f32⟩ : BufTy).Contents (Elt Ideal)) (x3 : (⟨S9x4096x5, .f32⟩ : BufTy).Contents (Elt Ideal)) (x7 : (⟨S9x2048x4, .f32⟩ : BufTy).Contents (Elt Ideal)) :
    Read.val_main_v16 (F := Ideal) x0 x3 x7
      = Cert.KernelIdeal.Tail.pred (F := Ideal) x3 (Cert.KernelIdeal.Results.offs x0 x7) := by
  rw [show Cert.KernelIdeal.Results.offs x0 x7 = Read.val_main_v3 (F := Ideal) x0 x7 from (RefStages.ref_v3 x0 x7).symm]
  rfl

/-- The reference's class piece. -/
theorem res2_eq (x0 : (⟨S9x4096x2048, .f32⟩ : BufTy).Contents (Elt Ideal)) (x9 : (⟨S9x2048x21, .f32⟩ : BufTy).Contents (Elt Ideal)) :
    Read.val_main_v30 (F := Ideal) x0 x9 = Cert.KernelIdeal.Results.cls x0 x9 :=
  RefStages.ref_v30 x0 x9

/-- The reference's softmax of the alpha-class piece. -/
theorem res3_eq (x0 : (⟨S9x4096x2048, .f32⟩ : BufTy).Contents (Elt Ideal)) (x5 : (⟨S2048x512, .f32⟩ : BufTy).Contents (Elt Ideal)) (x8 : (⟨S9x512x1, .f32⟩ : BufTy).Contents (Elt Ideal)) :
    Read.val_main_v42 (F := Ideal) x0 x5 x8
      = Cert.KernelIdeal.Tail.soft1 (F := Ideal) (Cert.KernelIdeal.Results.alphc x0 x5 x8) := by
  rw [show Cert.KernelIdeal.Results.alphc x0 x5 x8 = Read.val_main_v31 (F := Ideal) x0 x5 x8 from (RefStages.ref_v31 x0 x5 x8).symm]
  rfl

variable (m : (ℓ : Loc nD τ sig) → Buf (Elt Ideal) ℓ) (ρ : Dev nD → PrngReg)

/-- Every weakly fair execution of the reference program terminates with its four results at the result functions of
    the argument arrays, and the argument arrays unchanged. -/
theorem run : θ_run defs (onTc (τ := τ) (main (F := Ideal))) ⟨m, fun _ => 0, ρ⟩ fun r => ∀ c : Dev nD,
      r.2.mem ((c.tc : Thread nD τ).loc main_v18) = Cert.KernelIdeal.Tail.comb (F := Ideal) (m ((c.tc : Thread nD τ).loc main_arg3)) (Cert.KernelIdeal.Results.offs (m ((c.tc : Thread nD τ).loc main_arg0)) (m ((c.tc : Thread nD τ).loc main_arg7))) (Cert.KernelIdeal.Results.alph (m ((c.tc : Thread nD τ).loc main_arg0)) (m ((c.tc : Thread nD τ).loc main_arg5)) (m ((c.tc : Thread nD τ).loc main_arg6)))
      ∧ r.2.mem ((c.tc : Thread nD τ).loc main_v16) = Cert.KernelIdeal.Tail.pred (F := Ideal) (m ((c.tc : Thread nD τ).loc main_arg3)) (Cert.KernelIdeal.Results.offs (m ((c.tc : Thread nD τ).loc main_arg0)) (m ((c.tc : Thread nD τ).loc main_arg7)))
      ∧ r.2.mem ((c.tc : Thread nD τ).loc main_v30) = Cert.KernelIdeal.Results.cls (m ((c.tc : Thread nD τ).loc main_arg0)) (m ((c.tc : Thread nD τ).loc main_arg9))
      ∧ r.2.mem ((c.tc : Thread nD τ).loc main_v42) = Cert.KernelIdeal.Tail.soft1 (F := Ideal) (Cert.KernelIdeal.Results.alphc (m ((c.tc : Thread nD τ).loc main_arg0)) (m ((c.tc : Thread nD τ).loc main_arg5)) (m ((c.tc : Thread nD τ).loc main_arg8)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c => ⟨
      (h c).1.trans ((Read.val_main_v18_eq _ _ _ _ _).trans (res0_eq _ _ _ _ _)),
      (h c).2.1.trans ((Read.val_main_v16_eq _ _ _).trans (res1_eq _ _ _)),
      (h c).2.2.1.trans ((Read.val_main_v30_eq _ _).trans (res2_eq _ _)),
      (h c).2.2.2.1.trans ((Read.val_main_v42_eq _ _ _).trans (res3_eq _ _ _)),
      (h c).2.2.2.2⟩)
    (Cert.ReferenceIdeal.Value.run (F := Ideal) m ρ)

end Cert.ReferenceIdeal.RefRun

end
-- ==== Proof.lean ====
/-
  The certificate: a fused projection kernel against its einsum reference, equal on the extended reals.

  The kernel reads the 9 × 4096 × 2048 features once per (slice, row block) and multiplies them by the projection and by
  a weight slab in which the box-regression and class weights sit side by side, padded to 128 lanes; the rectified
  projection is multiplied by a second slab holding the alpha and alpha-class weights.  A softmax over lanes 4 … 24 of the
  first product is taken with every other lane filled by a constant that stands for −∞ (named so at the ideal
  instance: exp of it is 0 and it is the unit of max), so it is the softmax of the 21 class scores alone.  After the
  region both programs apply the same operations — a softmax across the nine slices and a weighted sum — to pieces
  that are, index by index, the same sums.  No finiteness of the inputs is used: sums are only re-indexed.
-/
import proofs.«123543_j10943576670543_2_alg».proof.Defs
import proofs.«123543_j10943576670543_2_alg».proof.Proof.Gen.Kernel
import proofs.«123543_j10943576670543_2_alg».proof.Proof.Gen.Kernel.Skeleton
import proofs.«123543_j10943576670543_2_alg».proof.Proof.Gen.Kernel.Launch
import proofs.«123543_j10943576670543_2_alg».proof.Proof.Gen.Kernel.Points
import proofs.«123543_j10943576670543_2_alg».proof.Proof.Gen.Kernel.Frame
import proofs.«123543_j10943576670543_2_alg».proof.Proof.Gen.KernelIdeal
import proofs.«123543_j10943576670543_2_alg».proof.Proof.Gen.KernelIdeal.Skeleton
import proofs.«123543_j10943576670543_2_alg».proof.Proof.Gen.KernelIdeal.Launch
import proofs.«123543_j10943576670543_2_alg».proof.Proof.Gen.KernelIdeal.Points
import proofs.«123543_j10943576670543_2_alg».proof.Proof.Gen.KernelIdeal.Frame
import proofs.«123543_j10943576670543_2_alg».proof.Proof.Gen.ReferenceIdeal
import proofs.«123543_j10943576670543_2_alg».proof.Proof.Gen.ReferenceIdeal.Run
import proofs.«123543_j10943576670543_2_alg».proof.Proof.Gen.Pre_finite_inputs
import proofs.«123543_j10943576670543_2_alg».proof.Proof.KernelRun
import proofs.«123543_j10943576670543_2_alg».proof.Proof.RefRun
import Idealize.ShloMosaic.Adequacy
import Idealize.ShloMosaic.Init

noncomputable section

namespace Cert.Proof

open Idealize.ShloMosaic Idealize.ShloMosaic.TcCoe Idealize.SL.Sem

/-- The kernel program as printed runs and leaves its arguments unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- So does the reference: its run with the results dropped. -/
theorem frame_referenceIdeal : Cert.frame_ReferenceIdeal := fun m ρ _ =>
  (θ_run Cert.ReferenceIdeal.defs _ _).mono (fun _ h c => (h c).2.2.2.2) (Cert.ReferenceIdeal.Value.run (F := Ideal) m ρ)

/-- The one rewrite of the idealization: the mask's fill constant is named, and the name denotes −∞. -/
theorem preserves : Cert.preserves_Kernel_KernelIdeal :=
  IdealRules.named_const.statement Cert.KernelIdeal.κ "neg_big" .f32 0xFF333332#32 ⊥ rfl

/-- The two idealized programs, from memories that agree on the arguments, end with equal results: both runs end at
    the same four functions of the argument arrays. -/
theorem algebraic : Cert.algebraic_KernelIdeal_ReferenceIdeal := by
  intro m ρ m' ρ' _ hagree
  refine ⟨_, _, _, _, Cert.KernelIdeal.KernelRun.run m ρ, ?_⟩
  refine (θ_run Cert.ReferenceIdeal.defs _ _).mono (fun _ h c => ?_) (Cert.ReferenceIdeal.RefRun.run m' ρ')
  obtain ⟨a0, a1, a2, a3, a4, a5, a6, a7, a8, a9⟩ := hagree c
  rw [← a0, ← a3, ← a5, ← a6, ← a7, ← a8, ← a9]
  exact h c

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
